-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x256 : Shape := ⟨3, ![2, 8, 256]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S2x8x256 : S_.BroadcastsInDim S2x8x256 (![] : Fin 0 → Fin S2x8x256.rank)
  reducesTo_S2x8x256_S_d0_1_2 : S2x8x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S512x2 .f32) (main_arg8 : FVec F S2 .f32) (main_v33 : IVec S_ 1) : IVec S_ 1 :=
  let main_v34 : FVec F S512x2 .f32 := Host.absf main_arg7
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S256 .f32) (main_arg5 : FVec F S256x512 .f32) (main_arg6 : FVec F S512 .f32) (main_arg7 : FVec F S512x2 .f32) (main_arg8 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S2x8x256 .f32) (main_arg1 : FVec F S128x256 .f32) (main_arg2 : FVec F S128x256 .f32) (main_arg3 : FVec F S256 .f32) (main_arg4 : FVec F S256 .f32) (main_arg5 : FVec F S256x512 .f32) (main_arg6 : FVec F S512 .f32) (main_arg7 : FVec F S512x2 .f32) (main_arg8 : FVec F S2 .f32) : IVec S_ 1 :=
  let main_v0 : FVec F S2x8x256 .f32 := Host.absf main_arg0
  let main_cst : FVec F S_ .f32 := constant S_ .f32 0x7F800000#32
  let main_v1 : FVec F S2x8x256 .f32 := broadcastInDim S2x8x256 ![] bcast_S_S2x8x256 main_cst
  let main_v2 : IVec S2x8x256 1 := cmpf .olt main_v0 main_v1
  let main_c : IVec S_ 1 := constantI S_ 1 1#1
  let main_v3 : IVec S_ 1 := (fun x v => Host.reduce IntOp.andi x v reducesTo_S2x8x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S2x8x256 : Shape := ⟨3, ![2, 8, 256]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S16x256 : Shape := ⟨2, ![16, 256]⟩
abbrev S16x16384x2 : Shape := ⟨3, ![16, 16384, 2]⟩
abbrev S16x2048x2 : Shape := ⟨3, ![16, 2048, 2]⟩
abbrev S16x1x256 : Shape := ⟨3, ![16, 1, 256]⟩
abbrev S1x128x256 : Shape := ⟨3, ![1, 128, 256]⟩
abbrev S16x128x256 : Shape := ⟨3, ![16, 128, 256]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩
abbrev S2048x512 : Shape := ⟨2, ![2048, 512]⟩
abbrev S1x512 : Shape := ⟨2, ![1, 512]⟩
abbrev S2048x2 : Shape := ⟨2, ![2048, 2]⟩
abbrev S1x2 : Shape := ⟨2, ![1, 2]⟩
abbrev S1x2048x2 : Shape := ⟨3, ![1, 2048, 2]⟩
abbrev S2x8x128x128x2 : Shape := ⟨5, ![2, 8, 128, 128, 2]⟩

abbrev nBuf : Space → Nat
  | .hbm => 12
  | .vmem => 12
  | .smem => 0
  | _ => 0

abbrev bufTy : (tb : Table) → Fin (tcTables nBuf tb) → BufTy
  | .hbm, ⟨0, _⟩ => ⟨S2x8x256, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S16x256, .f32⟩
  | .hbm, ⟨10, _⟩ => ⟨S16x16384x2, .f32⟩
  | .hbm, ⟨11, _⟩ => ⟨S2x8x128x128x2, .f32⟩
  | .local _ .vmem, ⟨0, _⟩ => ⟨S16x256, .f32⟩
  | .local _ .vmem, ⟨1, _⟩ => ⟨S16x256, .f32⟩
  | .local _ .vmem, ⟨2, _⟩ => ⟨S128x256, .f32⟩
  | .local _ .vmem, ⟨3, _⟩ => ⟨S16x256, .f32⟩
  | .local _ .vmem, ⟨4, _⟩ => ⟨S256, .f32⟩
  | .local _ .vmem, ⟨5, _⟩ => ⟨S256, .f32⟩
  | .local _ .vmem, ⟨6, _⟩ => ⟨S256x512, .f32⟩
  | .local _ .vmem, ⟨7, _⟩ => ⟨S512, .f32⟩
  | .local _ .vmem, ⟨8, _⟩ => ⟨S512x2, .f32⟩
  | .local _ .vmem, ⟨9, _⟩ => ⟨S2, .f32⟩
  | .local _ .vmem, ⟨10, _⟩ => ⟨S16x2048x2, .f32⟩
  | .local _ .vmem, ⟨11, _⟩ => ⟨S16x2048x2, .f32⟩
  | _, _ => ⟨S2x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_off1 (k0_t1 : Fin k0_t1_loop.trips) : Fin 2 → Nat :=
  let c0_i32_13 : BitVec 32 := 0#32
  let c0_i32 : BitVec 32 := 0#32
  let c1_i32 : BitVec 32 := 1#32
  let arg11 : BitVec 32 := Scf.iv c0_i32 c1_i32 k0_t1
  let c1_i32_12 : BitVec 32 := 1#32
  let v17 : BitVec 32 := Scalar.muli arg11 c1_i32_12
  let v18 : BitVec 32 := Scalar.addi c0_i32_13 v17
  let v19 : Index := Scalar.indexCast v18
  let c0_14 : Index := 0#32
  ![v19.toNat, 0]
def k0_off2 (k0_t1 : Fin k0_t1_loop.trips) : Fin 3 → Nat :=
  let c0_i32_13 : BitVec 32 := 0#32
  let c0_i32 : BitVec 32 := 0#32
  let c1_i32 : BitVec 32 := 1#32
  let arg11 : BitVec 32 := Scf.iv c0_i32 c1_i32 k0_t1
  let c1_i32_12 : BitVec 32 := 1#32
  let v17 : BitVec 32 := Scalar.muli arg11 c1_i32_12
  let v18 : BitVec 32 := Scalar.addi c0_i32_13 v17
  let v61 : Index := Scalar.indexCast v18
  let c0_22 : Index := 0#32
  let c0_23 : Index := 0#32
  ![v61.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2x8x256_S16x256 : S2x8x256.ShapeCasts S16x256
  inb_S16x256_S16x256_0_0 : ∀ a, (![0, 0] : Fin 2 → Nat) a + S16x256.size a ≤ S16x256.size a
  h_S16x256 : 0 < S16x256.numel
  inb_S128x256_S128x256_0_0 : ∀ a, (![0, 0] : Fin 2 → Nat) a + S128x256.size a ≤ S128x256.size a
  h_S128x256 : 0 < S128x256.numel
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  shapeCasts_S16x128x256_S2048x256 : S16x128x256.ShapeCasts S2048x256
  inb_S256_S256_0 : ∀ a, (![0] : Fin 1 → Nat) a + S256.size a ≤ S256.size a
  h_S256 : 0 < S256.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512_S512_0 : ∀ a, (![0] : Fin 1 → Nat) a + S512.size a ≤ S512.size a
  h_S512 : 0 < S512.numel
  inb_S512x2_S512x2_0_0 : ∀ a, (![0, 0] : Fin 2 → Nat) a + S512x2.size a ≤ S512x2.size a
  h_S512x2 : 0 < S512x2.numel
  inb_S2_S2_0 : ∀ a, (![0] : Fin 1 → Nat) a + S2.size a ≤ S2.size a
  h_S2 : 0 < S2.numel
  h_S1x256 : 0 < S1x256.numel
  shapeCasts_S1x256_S256 : S1x256.ShapeCasts S256
  shapeCasts_S256_S1x256 : S256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  shapeCasts_S512_S1x512 : S512.ShapeCasts S1x512
  broadcasts_S1x512_S2048x512 : S1x512.Broadcasts S2048x512
  shapeCasts_S2_S1x2 : S2.ShapeCasts S1x2
  broadcasts_S1x2_S2048x2 : S1x2.Broadcasts S2048x2
  h_S1x2048x2 : 0 < S1x2048x2.numel
  shapeCasts_S1x2048x2_S2048x2 : S1x2048x2.ShapeCasts S2048x2
  shapeCasts_S2048x2_S1x2048x2 : S2048x2.ShapeCasts S1x2048x2
  shapeCasts_S16x16384x2_S2x8x128x128x2 : S16x16384x2.ShapeCasts S2x8x128x128x2
  dot_S2048x256_S256x512_S2048x512_1_0_0_1_n_n_wf : DotDims.WF S2048x256 S256x512 S2048x512 [1] [0] [0] [1] [] []
  dot_S2048x512_S512x2_S2048x2_1_0_0_1_n_n_wf : DotDims.WF S2048x512 S512x2 S2048x2 [1] [0] [0] [1] [] []
  hrank0 : 0 < grid0.rank
  k0_t1_ok : k0_t1_loop.OK
  k0_off1_inb : ∀ k0_t1 : Fin k0_t1_loop.trips, ∀ a, (k0_off1 k0_t1) a + S1x256.size a ≤ S16x256.size a
  k0_off2_inb : ∀ k0_t1 : Fin k0_t1_loop.trips, ∀ a, (k0_off2 k0_t1) a + S1x2048x2.size a ≤ S16x2048x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S128x256.size a
  hwx0_0 : ∀ i : grid0.Coords, EltTy.bits .f32 = 32 ∨ (Rect.block (s := S128x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S512x2.size a
  hwx0_7 : ∀ i : grid0.Coords, EltTy.bits .f32 = 32 ∨ (Rect.block (s := S512x2) S512x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x2048x2.size a ≤ S16x16384x2.size a
  hwx0_9 : ∀ i : grid0.Coords, EltTy.bits .f32 = 32 ∨ (Rect.block (s := S16x16384x2) S16x2048x2.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_arg1) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S16x2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x8x256 : Shape := ⟨3, ![2, 8, 256]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S128x1x256 : Shape := ⟨3, ![128, 1, 256]⟩
abbrev S1x128x256 : Shape := ⟨3, ![1, 128, 256]⟩
abbrev S128x128x256 : Shape := ⟨3, ![128, 128, 256]⟩
abbrev S2x8x1x1x256 : Shape := ⟨5, ![2, 8, 1, 1, 256]⟩
abbrev S1x1x128x128x256 : Shape := ⟨5, ![1, 1, 128, 128, 256]⟩
abbrev S2x8x128x128x256 : Shape := ⟨5, ![2, 8, 128, 128, 256]⟩
abbrev S_ : Shape := ⟨0, ![]⟩
abbrev S2x8x128x128 : Shape := ⟨4, ![2, 8, 128, 128]⟩
abbrev S2x8x128x128x1 : Shape := ⟨5, ![2, 8, 128, 128, 1]⟩
abbrev S1x1x1x1x256 : Shape := ⟨5, ![1, 1, 1, 1, 256]⟩
abbrev S2x8x128x128x512 : Shape := ⟨5, ![2, 8, 128, 128, 512]⟩
abbrev S1x1x1x1x512 : Shape := ⟨5, ![1, 1, 1, 1, 512]⟩
abbrev S2x8x128x128x2 : Shape := ⟨5, ![2, 8, 128, 128, 2]⟩
abbrev S1x1x1x1x2 : Shape := ⟨5, ![1, 1, 1, 1, 2]⟩

abbrev nBuf : Space → Nat
  | .hbm => 59
  | .vmem => 0
  | .smem => 0
  | _ => 0

abbrev bufTy : (tb : Table) → Fin (tcTables nBuf tb) → BufTy
  | .hbm, ⟨0, _⟩ => ⟨S2x8x256, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S128x1x256, .f32⟩
  | .hbm, ⟨10, _⟩ => ⟨S1x128x256, .f32⟩
  | .hbm, ⟨11, _⟩ => ⟨S128x128x256, .f32⟩
  | .hbm, ⟨12, _⟩ => ⟨S128x128x256, .f32⟩
  | .hbm, ⟨13, _⟩ => ⟨S128x128x256, .f32⟩
  | .hbm, ⟨14, _⟩ => ⟨S2x8x1x1x256, .f32⟩
  | .hbm, ⟨15, _⟩ => ⟨S1x1x128x128x256, .f32⟩
  | .hbm, ⟨16, _⟩ => ⟨S2x8x128x128x256, .f32⟩
  | .hbm, ⟨17, _⟩ => ⟨S2x8x128x128x256, .f32⟩
  | .hbm, ⟨18, _⟩ => ⟨S2x8x128x128x256, .f32⟩
  | .hbm, ⟨19, _⟩ => ⟨S_, .f32⟩
  | .hbm, ⟨20, _⟩ => ⟨S2x8x128x128, .f32⟩
  | .hbm, ⟨21, _⟩ => ⟨S2x8x128x128x1, .f32⟩
  | .hbm, ⟨22, _⟩ => ⟨S_, .f32⟩
  | .hbm, ⟨23, _⟩ => ⟨S2x8x128x128x1, .f32⟩
  | .hbm, ⟨24, _⟩ => ⟨S2x8x128x128x1, .f32⟩
  | .hbm, ⟨25, _⟩ => ⟨S2x8x128x128x256, .f32⟩
  | .hbm, ⟨26, _⟩ => ⟨S2x8x128x128x256, .f32⟩
  | .hbm, ⟨27, _⟩ => ⟨S2x8x128x128x256, .f32⟩
  | .hbm, ⟨28, _⟩ => ⟨S_, .f32⟩
  | .hbm, ⟨29, _⟩ => ⟨S2x8x128x128, .f32⟩
  | .hbm, ⟨30, _⟩ => ⟨S2x8x128x128x1, .f32⟩
  | .hbm, ⟨31, _⟩ => ⟨S_, .f32⟩
  | .hbm, ⟨32, _⟩ => ⟨S2x8x128x128x1, .f32⟩
  | .hbm, ⟨33, _⟩ => ⟨S2x8x128x128x1, .f32⟩
  | .hbm, ⟨34, _⟩ => ⟨S2x8x128x128x256, .f32⟩
  | .hbm, ⟨35, _⟩ => ⟨S2x8x128x128x256, .f32⟩
  | .hbm, ⟨36, _⟩ => ⟨S_, .f32⟩
  | .hbm, ⟨37, _⟩ => ⟨S2x8x128x128x1, .f32⟩
  | .hbm, ⟨38, _⟩ => ⟨S2x8x128x128x1, .f32⟩
  | .hbm, ⟨39, _⟩ => ⟨S2x8x128x128x1, .f32⟩
  | .hbm, ⟨40, _⟩ => ⟨S2x8x128x128x256, .f32⟩
  | .hbm, ⟨41, _⟩ => ⟨S2x8x128x128x256, .f32⟩
  | .hbm, ⟨42, _⟩ => ⟨S1x1x1x1x256, .f32⟩
  | .hbm, ⟨43, _⟩ => ⟨S2x8x128x128x256, .f32⟩
  | .hbm, ⟨44, _⟩ => ⟨S2x8x128x128x256, .f32⟩
  | .hbm, ⟨45, _⟩ => ⟨S1x1x1x1x256, .f32⟩
  | .hbm, ⟨46, _⟩ => ⟨S2x8x128x128x256, .f32⟩
  | .hbm, ⟨47, _⟩ => ⟨S2x8x128x128x256, .f32⟩
  | .hbm, ⟨48, _⟩ => ⟨S2x8x128x128x512, .f32⟩
  | .hbm, ⟨49, _⟩ => ⟨S1x1x1x1x512, .f32⟩
  | .hbm, ⟨50, _⟩ => ⟨S2x8x128x128x512, .f32⟩
  | .hbm, ⟨51, _⟩ => ⟨S2x8x128x128x512, .f32⟩
  | .hbm, ⟨52, _⟩ => ⟨S_, .f32⟩
  | .hbm, ⟨53, _⟩ => ⟨S2x8x128x128x512, .f32⟩
  | .hbm, ⟨54, _⟩ => ⟨S2x8x128x128x512, .f32⟩
  | .hbm, ⟨55, _⟩ => ⟨S2x8x128x128x2, .f32⟩
  | .hbm, ⟨56, _⟩ => ⟨S1x1x1x1x2, .f32⟩
  | .hbm, ⟨57, _⟩ => ⟨S2x8x128x128x2, .f32⟩
  | .hbm, ⟨58, _⟩ => ⟨S2x8x128x128x2, .f32⟩
  | _, _ => ⟨S2x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S128x256_S128x1x256_0_2 : S128x256.BroadcastsInDim S128x1x256 (![0, 2] : Fin 2 → Fin S128x1x256.rank)
  bcast_S128x256_S1x128x256_1_2 : S128x256.BroadcastsInDim S1x128x256 (![1, 2] : Fin 2 → Fin S1x128x256.rank)
  bcast_S128x1x256_S128x128x256_0_1_2 : S128x1x256.BroadcastsInDim S128x128x256 (![0, 1, 2] : Fin 3 → Fin S128x128x256.rank)
  bcast_S1x128x256_S128x128x256_0_1_2 : S1x128x256.BroadcastsInDim S128x128x256 (![0, 1, 2] : Fin 3 → Fin S128x128x256.rank)
  bcast_S2x8x256_S2x8x1x1x256_0_1_4 : S2x8x256.BroadcastsInDim S2x8x1x1x256 (![0, 1, 4] : Fin 3 → Fin S2x8x1x1x256.rank)
  bcast_S128x128x256_S1x1x128x128x256_2_3_4 : S128x128x256.BroadcastsInDim S1x1x128x128x256 (![2, 3, 4] : Fin 3 → Fin S1x1x128x128x256.rank)
  bcast_S2x8x1x1x256_S2x8x128x128x256_0_1_2_3_4 : S2x8x1x1x256.BroadcastsInDim S2x8x128x128x256 (![0, 1, 2, 3, 4] : Fin 5 → Fin S2x8x128x128x256.rank)
  bcast_S1x1x128x128x256_S2x8x128x128x256_0_1_2_3_4 : S1x1x128x128x256.BroadcastsInDim S2x8x128x128x256 (![0, 1, 2, 3, 4] : Fin 5 → Fin S2x8x128x128x256.rank)
  reducesTo_S2x8x128x128x256_S2x8x128x128_d4 : S2x8x128x128x256.ReducesTo [4] S2x8x128x128
  h_S_ : 0 < S_.numel
  bcast_S2x8x128x128_S2x8x128x128x1_0_1_2_3 : S2x8x128x128.BroadcastsInDim S2x8x128x128x1 (![0, 1, 2, 3] : Fin 4 → Fin S2x8x128x128x1.rank)
  bcast_S_S2x8x128x128x1 : S_.BroadcastsInDim S2x8x128x128x1 (![] : Fin 0 → Fin S2x8x128x128x1.rank)
  bcast_S2x8x128x128x1_S2x8x128x128x256_0_1_2_3_4 : S2x8x128x128x1.BroadcastsInDim S2x8x128x128x256 (![0, 1, 2, 3, 4] : Fin 5 → Fin S2x8x128x128x256.rank)
  bcast_S256_S1x1x1x1x256_4 : S256.BroadcastsInDim S1x1x1x1x256 (![4] : Fin 1 → Fin S1x1x1x1x256.rank)
  bcast_S1x1x1x1x256_S2x8x128x128x256_0_1_2_3_4 : S1x1x1x1x256.BroadcastsInDim S2x8x128x128x256 (![0, 1, 2, 3, 4] : Fin 5 → Fin S2x8x128x128x256.rank)
  bcast_S512_S1x1x1x1x512_4 : S512.BroadcastsInDim S1x1x1x1x512 (![4] : Fin 1 → Fin S1x1x1x1x512.rank)
  bcast_S1x1x1x1x512_S2x8x128x128x512_0_1_2_3_4 : S1x1x1x1x512.BroadcastsInDim S2x8x128x128x512 (![0, 1, 2, 3, 4] : Fin 5 → Fin S2x8x128x128x512.rank)
  bcast_S_S2x8x128x128x512 : S_.BroadcastsInDim S2x8x128x128x512 (![] : Fin 0 → Fin S2x8x128x128x512.rank)
  bcast_S2_S1x1x1x1x2_4 : S2.BroadcastsInDim S1x1x1x1x2 (![4] : Fin 1 → Fin S1x1x1x1x2.rank)
  bcast_S1x1x1x1x2_S2x8x128x128x2_0_1_2_3_4 : S1x1x1x1x2.BroadcastsInDim S2x8x128x128x2 (![0, 1, 2, 3, 4] : Fin 5 → Fin S2x8x128x128x2.rank)
  dot_S2x8x128x128x256_S256x512_S2x8x128x128x512_4_0_0123_1_n_n_wf : DotDims.WF S2x8x128x128x256 S256x512 S2x8x128x128x512 [4] [0] [0, 1, 2, 3] [1] [] []
  dot_S2x8x128x128x512_S512x2_S2x8x128x128x2_4_0_0123_1_n_n_wf : DotDims.WF S2x8x128x128x512 S512x2 S2x8x128x128x2 [4] [0] [0, 1, 2, 3] [1] [] []

variable [Facts₀]

def dot_S2x8x128x128x256_S256x512_S2x8x128x128x512_4_0_0123_1_n_n : DotDims S2x8x128x128x256 S256x512 S2x8x128x128x512 where
  lhsContracting := [4]
  rhsContracting := [0]
  lhsNonContracting := [0, 1, 2, 3]
  rhsNonContracting := [1]
  lhsBatch := []
  rhsBatch := []
  wf := dot_S2x8x128x128x256_S256x512_S2x8x128x128x512_4_0_0123_1_n_n_wf
def dot_S2x8x128x128x512_S512x2_S2x8x128x128x2_4_0_0123_1_n_n : DotDims S2x8x128x128x512 S512x2 S2x8x128x128x2 where
  lhsContracting := [4]
  rhsContracting := [0]
  lhsNonContracting := [0, 1, 2, 3]
  rhsNonContracting := [1]
  lhsBatch := []
  rhsBatch := []
  wf := dot_S2x8x128x128x512_S512x2_S2x8x128x128x2_4_0_0123_1_n_n_wf

class Facts : Prop extends Facts₀ where

variable [Facts]
-- ==== Proof.KernelBody.lean ====
/-
  The frame of the kernel's program, by hand: the body of the pallas_call contains a counted loop of sixteen trips, and
  each trip loads the row of the output block it is about to overwrite, so the body is run here directly.

  At a grid point the body loads its eight whole input buffers, and trip `k` of the loop loads row `k` of the third
  input (the flattened `x`), computes that row's [2048, 2] result and stores it, whole, into row `k` of the [16, 2048, 2]
  output block.  After sixteen trips every row of the block has been overwritten, so the block no longer depends on
  what it held at entry: it is `outBlock`, row `r` being the body's arithmetic on the loop-invariant values and row `r`
  of the third input.  With that named, the pipeline's proof data, the body obligation at a generic point, the run of
  @main (the reshape before the region, the region over its eight grid points, the reshape after it) and the frame
  follow; everything here holds for any float values.
-/
import proofs.«159130_j36421322670264_2_alg».proof.Proof.Gen.Kernel.Frame
import proofs.«159130_j36421322670264_2_alg».proof.Proof.Gen.Kernel.Skeleton
import proofs.«159130_j36421322670264_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at one grid point, on whole staging buffers: the nine inputs at given contents, the output block at any
    contents `f`.  It loads the inputs, and in each of the sixteen trips of its loop loads one row of the third input,
    loads (and ignores) the row of the output it is about to overwrite, and stores that row whole.  It ends with the
    inputs as they were and the output block at `f` overwritten by a list of pieces `L f` (newest first), which is
    found while running the body. -/
noncomputable def bodyRun (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) :
    { L : BufTy.Contents (Elt F) arg10.view.ty → List (View.Piece (Elt F) S16x2048x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f (L f))) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

/-! ## What the sixteen row-stores leave in the output block -/

/-- The loop runs sixteen trips. -/
theorem trips_eq : k0_t1_loop.trips = 16 := by decide

/-- What trip `k` stores into row `k` of the output block: the body's arithmetic applied to the loop-invariant values
    and to row `k` of the third input, which the trip loads. -/
def rowPay (arg3 : Memref sig .tc .vmem S16x256 .f32) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (k : Fin k0_t1_loop.trips) : FVec F S1x2048x2 .f32 :=
  k0_pay4 (k0_pay5 (k0_pay1 v0 v1) v8 v9 (k0_pay2 v10) v12 (k0_pay3 v13) v15
    (View.readAt (Elt F) arg3.view (Rect.unit (s := S16x256) (k0_off1 k) S1x256.size (k0_off1_inb k)).toLoadRect X))

/-- One trip writes exactly one piece: row `k`, whole, at that value — whatever the block held before. -/
theorem tripL_eq (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (k : Fin k0_t1_loop.trips) (g : BufTy.Contents (Elt F) arg10.view.ty) :
    tripL_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X k g
      = [(⟨Rect.unit (s := S16x2048x2) (k0_off2 k) S1x2048x2.size (k0_off2_inb k), rowPay arg3 v0 v1 v8 v9 v10 v12 v13 v15 X k⟩ : View.Piece (Elt F) S16x2048x2 .f32)] := by
  unfold tripL_k0_t1 trip_k0_t1
  dsimp only
  unfold trip_k0_t1.sl.r rowPay
  rfl

/-- After the first `n` trips the block holds, in each of its first `n` rows, that row's stored value, and below them
    what it held at entry: by induction on `n`, the newest piece being row `n`, whole. -/
theorem read_pb (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (f : BufTy.Contents (Elt F) arg10.view.ty) :
    ∀ (n : ℕ) (hn : n ≤ k0_t1_loop.trips) (y : S16x2048x2.Idx),
      arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X f n)) y
        = if h : (y 0).val < n then
            rowPay arg3 v0 v1 v8 v9 v10 v12 v13 v15 X ⟨(y 0).val, Nat.lt_of_lt_of_le h hn⟩ (ValueIdx.ix3 (0 : Fin 1) (y 1) (y 2))
          else arg10.view.read (Elt F) f y
  | 0, _, y => by
      rw [pb_k0_t1, dif_neg (Nat.not_lt_zero _)]
      rfl
  | n + 1, hn, y => by
      have hn' : n < k0_t1_loop.trips := hn
      have hs := pb_k0_t1_succ (F := F) Variants.none c none i arg1 harg1 arg2 harg2 arg3 harg3 arg4 harg4 arg5 harg5 arg6 harg6 arg7 harg7 arg8 harg8 arg9 harg9 arg10 harg10 v0 v1 v8 v9 v10 v12 v13 v15 X f ⟨n, hn'⟩
      rw [show (⟨n, hn'⟩ : Fin k0_t1_loop.trips).val + 1 = n + 1 from rfl] at hs
      rw [hs, tripL_eq, List.singleton_append]
      by_cases hy : (y 0).val = n
      · rw [View.read_writes_cons_unit_of_mem arg10.view f (k0_off2_inb ⟨n, hn'⟩) _ _ y
            (ValueIdx.ix3 (0 : Fin 1) (y 1) (y 2)) (k0_off2_eq ⟨n, hn'⟩)
            (fun a => by
              match a with
              | ⟨0, _⟩ => exact hy
              | ⟨1, _⟩ => exact (Nat.zero_add _).symm
              | ⟨2, _⟩ => exact (Nat.zero_add _).symm),
          dif_pos (by omega)]
        exact congrArg (fun k => rowPay arg3 v0 v1 v8 v9 v10 v12 v13 v15 X k (ValueIdx.ix3 (0 : Fin 1) (y 1) (y 2))) (Fin.ext hy.symm)
      · rw [View.read_writes_cons_unit_of_not_mem arg10.view f (k0_off2_inb ⟨n, hn'⟩) _ _ y (k0_off2_eq ⟨n, hn'⟩) (0 : Fin 3)
            (by
              show (y 0).val < n ∨ n + 1 ≤ (y 0).val
              omega),
          read_pb c i arg1 harg1 arg2 harg2 arg3 harg3 arg4 harg4 arg5 harg5 arg6 harg6 arg7 harg7 arg8 harg8 arg9 harg9 arg10 harg10 v0 v1 v8 v9 v10 v12 v13 v15 X f n (Nat.le_of_lt hn') y]
        by_cases h : (y 0).val < n
        · rw [dif_pos h, dif_pos (by omega)]
        · rw [dif_neg h, dif_neg (by omega)]

/-- The block the sixteen trips leave: row `r` holds row `r`'s stored value. -/
def blockOut (arg3 : Memref sig .tc .vmem S16x256 .f32) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) : Vec F S16x2048x2 .f32 := fun y =>
  rowPay arg3 v0 v1 v8 v9 v10 v12 v13 v15 X ⟨(y 0).val, trips_eq ▸ (y 0).isLt⟩ (ValueIdx.ix3 (0 : Fin 1) (y 1) (y 2))

/-- After all sixteen trips nothing of the entry contents is left. -/
theorem read_pb_all (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (f : BufTy.Contents (Elt F) arg10.view.ty) :
    arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X f k0_t1_loop.trips))
      = blockOut arg3 v0 v1 v8 v9 v10 v12 v13 v15 X := by
  funext y
  rw [read_pb c i arg1 harg1 arg2 harg2 arg3 harg3 arg4 harg4 arg5 harg5 arg6 harg6 arg7 harg7 arg8 harg8 arg9 harg9 arg10 harg10 v0 v1 v8 v9 v10 v12 v13 v15 X f k0_t1_loop.trips le_rfl y, dif_pos (trips_eq ▸ (y 0).isLt)]
  rfl

/-- The block the body leaves, over the body's own loads of its whole input buffers. -/
def outBlock (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) : Vec F S16x2048x2 .f32 :=
  blockOut arg3
      (View.readAt (Elt F) arg1.view (Rect.unit (s := S16x256) ![0, 0] S16x256.size inb_S16x256_S16x256_0_0).toLoadRect (harg1.unread x0))
      (View.readAt (Elt F) arg2.view (Rect.unit (s := S128x256) ![0, 0] S128x256.size inb_S128x256_S128x256_0_0).toLoadRect (harg2.unread x1))
      (View.readAt (Elt F) arg4.view (Rect.unit (s := S256) ![0] S256.size inb_S256_S256_0).toLoadRect (harg4.unread x3))
      (View.readAt (Elt F) arg5.view (Rect.unit (s := S256) ![0] S256.size inb_S256_S256_0).toLoadRect (harg5.unread x4))
      (View.readAt (Elt F) arg6.view (Rect.unit (s := S256x512) ![0, 0] S256x512.size inb_S256x512_S256x512_0_0).toLoadRect (harg6.unread x5))
      (View.readAt (Elt F) arg7.view (Rect.unit (s := S512) ![0] S512.size inb_S512_S512_0).toLoadRect (harg7.unread x6))
      (View.readAt (Elt F) arg8.view (Rect.unit (s := S512x2) ![0, 0] S512x2.size inb_S512x2_S512x2_0_0).toLoadRect (harg8.unread x7))
      (View.readAt (Elt F) arg9.view (Rect.unit (s := S2) ![0] S2.size inb_S2_S2_0).toLoadRect (harg9.unread x8))
      (harg3.unread x2)

/-- The output block after the body, read back, is `outBlock` — whatever it held at entry. -/
theorem bodyRun_read (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) (f : BufTy.Contents (Elt F) arg10.view.ty) :
    arg10.view.read (Elt F) (arg10.view.writes (Elt F) f ((bodyRun (F := F) c i arg1 harg1 arg2 harg2 arg3 harg3 arg4 harg4 arg5 harg5 arg6 harg6 arg7 harg7 arg8 harg8 arg9 harg9 arg10 harg10 x0 x1 x2 x3 x4 x5 x6 x7 x8).1 f))
      = outBlock arg1 harg1 arg2 harg2 arg3 harg3 arg4 harg4 arg5 harg5 arg6 harg6 arg7 harg7 arg8 harg8 arg9 harg9 arg10 harg10 x0 x1 x2 x3 x4 x5 x6 x7 x8 := by
  unfold bodyRun outBlock
  dsimp only
  exact read_pb_all c i arg1 harg1 arg2 harg2 arg3 harg3 arg4 harg4 arg5 harg5 arg6 harg6 arg7 harg7 arg8 harg8 arg9 harg9 arg10 harg10 _ _ _ _ _ _ _ _ _ f

/-! ## The pipeline's proof data -/

variable (m : (ℓ : Loc nD τ sig) → Buf (Elt F) ℓ) (ρ : Dev nD → PrngReg)

/-- Each window's current staging buffer at point `t`. -/
abbrev ms0 (t : Fin cfg0.N) : Memref sig .tc .vmem S16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x2048x2 .f32 := win0_9.stage (cfg0.slots t 9)
abbrev hs9 (t : Fin cfg0.N) : (ms9 t).IsWhole := hstage0_9 ((cfg0.slots t 9).cast nbuf0_9)

/-- What the output window's staging buffer holds after the body at point `t`: `outBlock` of the point's buffers and of
    the input windows' blocks there. -/
def outAt (c : Dev nD) (t : Fin cfg0.N) : Vec F S16x2048x2 .f32 :=
  outBlock (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (iblk m c 8 t)

/-- The proof data on core `c`: the arrays as the region finds them; after the body each input's buffer at its block,
    the output's at `outAt`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

/-- Each input's staging buffer holds its window's block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The body obligation at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 800000 in
/-- The body at any point: the inputs' buffers hold their blocks, the output's holds anything, so the run applies; the
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact bodyRun_read c _ _ _ _ _ _ _ _ _ _ _ _ _ _ _ _ _ _ _ _ _ _ _ _ _ _ _ _ _ _ e9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; every array of the pipeline ends
    at what the proof data says (the output array at the blocks written back), and every other buffer the region and
    the host lines after it do not write as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.KernelIdealBody.lean ====
/-
  The frame of the kernel's program, by hand: the body of the pallas_call contains a counted loop of sixteen trips, and
  each trip loads the row of the output block it is about to overwrite, so the body is run here directly.

  At a grid point the body loads its eight whole input buffers, and trip `k` of the loop loads row `k` of the third
  input (the flattened `x`), computes that row's [2048, 2] result and stores it, whole, into row `k` of the [16, 2048, 2]
  output block.  After sixteen trips every row of the block has been overwritten, so the block no longer depends on
  what it held at entry: it is `outBlock`, row `r` being the body's arithmetic on the loop-invariant values and row `r`
  of the third input.  With that named, the pipeline's proof data, the body obligation at a generic point, the run of
  @main (the reshape before the region, the region over its eight grid points, the reshape after it) and the frame
  follow; everything here holds for any float values.
-/
import proofs.«159130_j36421322670264_2_alg».proof.Proof.Gen.KernelIdeal.Frame
import proofs.«159130_j36421322670264_2_alg».proof.Proof.Gen.KernelIdeal.Skeleton
import proofs.«159130_j36421322670264_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at one grid point, on whole staging buffers: the nine inputs at given contents, the output block at any
    contents `f`.  It loads the inputs, and in each of the sixteen trips of its loop loads one row of the third input,
    loads (and ignores) the row of the output it is about to overwrite, and stores that row whole.  It ends with the
    inputs as they were and the output block at `f` overwritten by a list of pieces `L f` (newest first), which is
    found while running the body. -/
noncomputable def bodyRun (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) :
    { L : BufTy.Contents (Elt F) arg10.view.ty → List (View.Piece (Elt F) S16x2048x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f (L f))) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

/-! ## What the sixteen row-stores leave in the output block -/

/-- The loop runs sixteen trips. -/
theorem trips_eq : k0_t1_loop.trips = 16 := by decide

/-- What trip `k` stores into row `k` of the output block: the body's arithmetic applied to the loop-invariant values
    and to row `k` of the third input, which the trip loads. -/
def rowPay (arg3 : Memref sig .tc .vmem S16x256 .f32) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (k : Fin k0_t1_loop.trips) : FVec F S1x2048x2 .f32 :=
  k0_pay4 (k0_pay5 (k0_pay1 v0 v1) v8 v9 (k0_pay2 v10) v12 (k0_pay3 v13) v15
    (View.readAt (Elt F) arg3.view (Rect.unit (s := S16x256) (k0_off1 k) S1x256.size (k0_off1_inb k)).toLoadRect X))

/-- One trip writes exactly one piece: row `k`, whole, at that value — whatever the block held before. -/
theorem tripL_eq (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (k : Fin k0_t1_loop.trips) (g : BufTy.Contents (Elt F) arg10.view.ty) :
    tripL_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X k g
      = [(⟨Rect.unit (s := S16x2048x2) (k0_off2 k) S1x2048x2.size (k0_off2_inb k), rowPay arg3 v0 v1 v8 v9 v10 v12 v13 v15 X k⟩ : View.Piece (Elt F) S16x2048x2 .f32)] := by
  unfold tripL_k0_t1 trip_k0_t1
  dsimp only
  unfold trip_k0_t1.sl.r rowPay
  rfl

/-- After the first `n` trips the block holds, in each of its first `n` rows, that row's stored value, and below them
    what it held at entry: by induction on `n`, the newest piece being row `n`, whole. -/
theorem read_pb (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (f : BufTy.Contents (Elt F) arg10.view.ty) :
    ∀ (n : ℕ) (hn : n ≤ k0_t1_loop.trips) (y : S16x2048x2.Idx),
      arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X f n)) y
        = if h : (y 0).val < n then
            rowPay arg3 v0 v1 v8 v9 v10 v12 v13 v15 X ⟨(y 0).val, Nat.lt_of_lt_of_le h hn⟩ (ValueIdx.ix3 (0 : Fin 1) (y 1) (y 2))
          else arg10.view.read (Elt F) f y
  | 0, _, y => by
      rw [pb_k0_t1, dif_neg (Nat.not_lt_zero _)]
      rfl
  | n + 1, hn, y => by
      have hn' : n < k0_t1_loop.trips := hn
      have hs := pb_k0_t1_succ (F := F) Variants.none c none i arg1 harg1 arg2 harg2 arg3 harg3 arg4 harg4 arg5 harg5 arg6 harg6 arg7 harg7 arg8 harg8 arg9 harg9 arg10 harg10 v0 v1 v8 v9 v10 v12 v13 v15 X f ⟨n, hn'⟩
      rw [show (⟨n, hn'⟩ : Fin k0_t1_loop.trips).val + 1 = n + 1 from rfl] at hs
      rw [hs, tripL_eq, List.singleton_append]
      by_cases hy : (y 0).val = n
      · rw [View.read_writes_cons_unit_of_mem arg10.view f (k0_off2_inb ⟨n, hn'⟩) _ _ y
            (ValueIdx.ix3 (0 : Fin 1) (y 1) (y 2)) (k0_off2_eq ⟨n, hn'⟩)
            (fun a => by
              match a with
              | ⟨0, _⟩ => exact hy
              | ⟨1, _⟩ => exact (Nat.zero_add _).symm
              | ⟨2, _⟩ => exact (Nat.zero_add _).symm),
          dif_pos (by omega)]
        exact congrArg (fun k => rowPay arg3 v0 v1 v8 v9 v10 v12 v13 v15 X k (ValueIdx.ix3 (0 : Fin 1) (y 1) (y 2))) (Fin.ext hy.symm)
      · rw [View.read_writes_cons_unit_of_not_mem arg10.view f (k0_off2_inb ⟨n, hn'⟩) _ _ y (k0_off2_eq ⟨n, hn'⟩) (0 : Fin 3)
            (by
              show (y 0).val < n ∨ n + 1 ≤ (y 0).val
              omega),
          read_pb c i arg1 harg1 arg2 harg2 arg3 harg3 arg4 harg4 arg5 harg5 arg6 harg6 arg7 harg7 arg8 harg8 arg9 harg9 arg10 harg10 v0 v1 v8 v9 v10 v12 v13 v15 X f n (Nat.le_of_lt hn') y]
        by_cases h : (y 0).val < n
        · rw [dif_pos h, dif_pos (by omega)]
        · rw [dif_neg h, dif_neg (by omega)]

/-- The block the sixteen trips leave: row `r` holds row `r`'s stored value. -/
def blockOut (arg3 : Memref sig .tc .vmem S16x256 .f32) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) : Vec F S16x2048x2 .f32 := fun y =>
  rowPay arg3 v0 v1 v8 v9 v10 v12 v13 v15 X ⟨(y 0).val, trips_eq ▸ (y 0).isLt⟩ (ValueIdx.ix3 (0 : Fin 1) (y 1) (y 2))

/-- After all sixteen trips nothing of the entry contents is left. -/
theorem read_pb_all (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole) (v0 : Vec F S16x256 .f32) (v1 : Vec F S128x256 .f32) (v8 : Vec F S256 .f32) (v9 : Vec F S256 .f32) (v10 : Vec F S256x512 .f32) (v12 : Vec F S512 .f32) (v13 : Vec F S512x2 .f32) (v15 : Vec F S2 .f32)
    (X : BufTy.Contents (Elt F) arg3.view.ty) (f : BufTy.Contents (Elt F) arg10.view.ty) :
    arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 v0 v1 v8 v9 v10 v12 v13 v15 X f k0_t1_loop.trips))
      = blockOut arg3 v0 v1 v8 v9 v10 v12 v13 v15 X := by
  funext y
  rw [read_pb c i arg1 harg1 arg2 harg2 arg3 harg3 arg4 harg4 arg5 harg5 arg6 harg6 arg7 harg7 arg8 harg8 arg9 harg9 arg10 harg10 v0 v1 v8 v9 v10 v12 v13 v15 X f k0_t1_loop.trips le_rfl y, dif_pos (trips_eq ▸ (y 0).isLt)]
  rfl

/-- The block the body leaves, over the body's own loads of its whole input buffers. -/
def outBlock (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) : Vec F S16x2048x2 .f32 :=
  blockOut arg3
      (View.readAt (Elt F) arg1.view (Rect.unit (s := S16x256) ![0, 0] S16x256.size inb_S16x256_S16x256_0_0).toLoadRect (harg1.unread x0))
      (View.readAt (Elt F) arg2.view (Rect.unit (s := S128x256) ![0, 0] S128x256.size inb_S128x256_S128x256_0_0).toLoadRect (harg2.unread x1))
      (View.readAt (Elt F) arg4.view (Rect.unit (s := S256) ![0] S256.size inb_S256_S256_0).toLoadRect (harg4.unread x3))
      (View.readAt (Elt F) arg5.view (Rect.unit (s := S256) ![0] S256.size inb_S256_S256_0).toLoadRect (harg5.unread x4))
      (View.readAt (Elt F) arg6.view (Rect.unit (s := S256x512) ![0, 0] S256x512.size inb_S256x512_S256x512_0_0).toLoadRect (harg6.unread x5))
      (View.readAt (Elt F) arg7.view (Rect.unit (s := S512) ![0] S512.size inb_S512_S512_0).toLoadRect (harg7.unread x6))
      (View.readAt (Elt F) arg8.view (Rect.unit (s := S512x2) ![0, 0] S512x2.size inb_S512x2_S512x2_0_0).toLoadRect (harg8.unread x7))
      (View.readAt (Elt F) arg9.view (Rect.unit (s := S2) ![0] S2.size inb_S2_S2_0).toLoadRect (harg9.unread x8))
      (harg3.unread x2)

/-- The output block after the body, read back, is `outBlock` — whatever it held at entry. -/
theorem bodyRun_read (c : Dev nD) (i : grid0.Coords) (arg1 : Memref sig .tc .vmem S16x256 .f32) (harg1 : arg1.IsWhole) (arg2 : Memref sig .tc .vmem S128x256 .f32) (harg2 : arg2.IsWhole) (arg3 : Memref sig .tc .vmem S16x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x2 .f32) (harg8 : arg8.IsWhole) (arg9 : Memref sig .tc .vmem S2 .f32) (harg9 : arg9.IsWhole) (arg10 : Memref sig .tc .vmem S16x2048x2 .f32) (harg10 : arg10.IsWhole)
    (x0 : Vec F S16x256 .f32) (x1 : Vec F S128x256 .f32) (x2 : Vec F S16x256 .f32) (x3 : Vec F S256 .f32) (x4 : Vec F S256 .f32) (x5 : Vec F S256x512 .f32) (x6 : Vec F S512 .f32) (x7 : Vec F S512x2 .f32) (x8 : Vec F S2 .f32) (f : BufTy.Contents (Elt F) arg10.view.ty) :
    arg10.view.read (Elt F) (arg10.view.writes (Elt F) f ((bodyRun (F := F) c i arg1 harg1 arg2 harg2 arg3 harg3 arg4 harg4 arg5 harg5 arg6 harg6 arg7 harg7 arg8 harg8 arg9 harg9 arg10 harg10 x0 x1 x2 x3 x4 x5 x6 x7 x8).1 f))
      = outBlock arg1 harg1 arg2 harg2 arg3 harg3 arg4 harg4 arg5 harg5 arg6 harg6 arg7 harg7 arg8 harg8 arg9 harg9 arg10 harg10 x0 x1 x2 x3 x4 x5 x6 x7 x8 := by
  unfold bodyRun outBlock
  dsimp only
  exact read_pb_all c i arg1 harg1 arg2 harg2 arg3 harg3 arg4 harg4 arg5 harg5 arg6 harg6 arg7 harg7 arg8 harg8 arg9 harg9 arg10 harg10 _ _ _ _ _ _ _ _ _ f

/-! ## The pipeline's proof data -/

variable (m : (ℓ : Loc nD τ sig) → Buf (Elt F) ℓ) (ρ : Dev nD → PrngReg)

/-- Each window's current staging buffer at point `t`. -/
abbrev ms0 (t : Fin cfg0.N) : Memref sig .tc .vmem S16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x2048x2 .f32 := win0_9.stage (cfg0.slots t 9)
abbrev hs9 (t : Fin cfg0.N) : (ms9 t).IsWhole := hstage0_9 ((cfg0.slots t 9).cast nbuf0_9)

/-- What the output window's staging buffer holds after the body at point `t`: `outBlock` of the point's buffers and of
    the input windows' blocks there. -/
def outAt (c : Dev nD) (t : Fin cfg0.N) : Vec F S16x2048x2 .f32 :=
  outBlock (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (iblk m c 8 t)

/-- The proof data on core `c`: the arrays as the region finds them; after the body each input's buffer at its block,
    the output's at `outAt`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

/-- Each input's staging buffer holds its window's block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The body obligation at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 800000 in
/-- The body at any point: the inputs' buffers hold their blocks, the output's holds anything, so the run applies; the
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact bodyRun_read c _ _ _ _ _ _ _ _ _ _ _ _ _ _ _ _ _ _ _ _ _ _ _ _ _ _ _ _ _ _ e9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; every array of the pipeline ends
    at what the proof data says (the output array at the blocks written back), and every other buffer the region and
    the host lines after it do not write as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.Spec.lean ====
/-
  The function both programs compute, on the extended reals.

  A token is a triple (row of `x`, time step, frequency bin).  Its 256 features are the sum of the row of `x` with the
  time embedding and the frequency embedding; they are normalised over the features (mean and variance as sums divided
  by 256, the reciprocal square root of the variance plus the shared epsilon literal, then the per-feature gain and
  bias), sent through a 256 → 512 affine map followed by `max · 0`, and through a 512 → 2 affine map.  The result array
  holds, at (b, n, t, f, o), output `o` of the token (row (b, n) of `x`, time `t`, frequency `f`).

  The two float literals that occur (256 and the epsilon) are kept as the words both programs spell; they are the same
  words on both sides and are never evaluated.
-/
import Idealize.ShloMosaic.PureOps.Ideal
import Idealize.ShloMosaic.Lib.ValueIdx

noncomputable section

namespace Cert.Spec

open Idealize.ShloMosaic Idealize.ShloMosaic.ValueIdx

/-- The literal 256.0 that both programs divide the feature sums by. -/
abbrev c256 : EReal := Ideal.ofBits .f32 0x43800000#32
/-- The literal both programs add to the variance. -/
abbrev ceps : EReal := Ideal.ofBits .f32 0x3727C5AC#32

/-- The features of a token before normalisation: the row of `x` plus (time embedding plus frequency embedding). -/
def feat (xr tr fr : Fin 256 → EReal) (d : Fin 256) : EReal := xr d + (tr d + fr d)

/-- The mean of the features. -/
def mean (h : Fin 256 → EReal) : EReal := Ideal.div (∑ d : Fin 256, h d) c256

/-- Their variance about that mean. -/
def var (h : Fin 256 → EReal) : EReal := Ideal.div (∑ d : Fin 256, (h d - mean h) * (h d - mean h)) c256

/-- The normalised features, with gain `g` and bias `b`. -/
def norm (h g b : Fin 256 → EReal) (d : Fin 256) : EReal :=
  (h d - mean h) * Ideal.rsqrt (var h + ceps) * g d + b d

/-- The hidden layer: an affine map into 512 units followed by `max · 0`. -/
def hidden (u : Fin 256 → EReal) (W1 : Fin 256 → Fin 512 → EReal) (b1 : Fin 512 → EReal) (e : Fin 512) : EReal :=
  max ((∑ d : Fin 256, u d * W1 d e) + b1 e) 0

/-- The output layer: an affine map into 2 units. -/
def outp (v : Fin 512 → EReal) (W2 : Fin 512 → Fin 2 → EReal) (b2 : Fin 2 → EReal) (o : Fin 2) : EReal :=
  (∑ e : Fin 512, v e * W2 e o) + b2 o

/-- One token's two outputs. -/
def token (xr tr fr g b : Fin 256 → EReal) (W1 : Fin 256 → Fin 512 → EReal) (b1 : Fin 512 → EReal)
    (W2 : Fin 512 → Fin 2 → EReal) (b2 : Fin 2 → EReal) (o : Fin 2) : EReal :=
  outp (hidden (norm (feat xr tr fr) g b) W1 b1) W2 b2 o

/-- The whole result array as a function of the nine argument arrays. -/
def result (x : (⟨3, ![2, 8, 256]⟩ : Shape).Idx → EReal) (te fe : (⟨2, ![128, 256]⟩ : Shape).Idx → EReal)
    (g b : (⟨1, ![256]⟩ : Shape).Idx → EReal) (W1 : (⟨2, ![256, 512]⟩ : Shape).Idx → EReal)
    (b1 : (⟨1, ![512]⟩ : Shape).Idx → EReal) (W2 : (⟨2, ![512, 2]⟩ : Shape).Idx → EReal)
    (b2 : (⟨1, ![2]⟩ : Shape).Idx → EReal) : (⟨5, ![2, 8, 128, 128, 2]⟩ : Shape).Idx → EReal := fun i =>
  token (fun d => x (ix3 (i 0) (i 1) d)) (fun d => te (ix2 (i 2) d)) (fun d => fe (ix2 (i 3) d))
    (fun d => g (ix1 d)) (fun d => b (ix1 d)) (fun d e => W1 (ix2 d e)) (fun e => b1 (ix1 e))
    (fun e o => W2 (ix2 e o)) (fun o => b2 (ix1 o)) (i 4)

/-- The same values laid out as the kernel produces them, before the final reshape: a [16, 16384, 2] array whose row
    `r` is row `r` of `x` flattened to [16, 256], and whose column `l` is the token of time step `l / 128` and frequency
    bin `l % 128`. -/
def flat (x2 : (⟨2, ![16, 256]⟩ : Shape).Idx → EReal) (te fe : (⟨2, ![128, 256]⟩ : Shape).Idx → EReal)
    (g b : (⟨1, ![256]⟩ : Shape).Idx → EReal) (W1 : (⟨2, ![256, 512]⟩ : Shape).Idx → EReal)
    (b1 : (⟨1, ![512]⟩ : Shape).Idx → EReal) (W2 : (⟨2, ![512, 2]⟩ : Shape).Idx → EReal)
    (b2 : (⟨1, ![2]⟩ : Shape).Idx → EReal) : (⟨3, ![16, 16384, 2]⟩ : Shape).Idx → EReal := fun y =>
  token (fun d => x2 (ix2 (y 0) d))
    (fun d => te (ix2 (⟨(y 1).val / 128, Nat.div_lt_of_lt_mul (y 1).isLt⟩ : Fin 128) d))
    (fun d => fe (ix2 (⟨(y 1).val % 128, Nat.mod_lt _ (by norm_num)⟩ : Fin 128) d))
    (fun d => g (ix1 d)) (fun d => b (ix1 d)) (fun d e => W1 (ix2 d e)) (fun e => b1 (ix1 e))
    (fun e o => W2 (ix2 e o)) (fun o => b2 (ix1 o)) (y 2)

end Cert.Spec

end
-- ==== Proof.RowValue.lean ====
/-
  One row of the block the kernel stores is the specification's token.

  For a row of `x` the kernel forms, for each of its 2048 (time step, frequency bin) pairs, the sum of the row with the
  time embedding and the frequency embedding, normalises the 256 features (mean and variance as lane sums divided by
  the literal 256, the reciprocal square root of the variance plus the epsilon literal, gain and bias), and applies the
  two affine layers, the first followed by `max · 0`.  Every operation is read at an index: the shape casts and
  broadcasts by their coordinate arithmetic (pair `(tl, f)` sits at row `tl * 128 + f` of the flattened block), each
  lane sum as the sum over the 256 feature coordinates, each matrix product into the zero accumulator as the sum over
  its one contracted coordinate, and the narrowing of the products' operands as the identity on extended reals.  What
  is left is, term for term, `Cert.Spec.token`.
-/
import proofs.«159130_j36421322670264_2_alg».proof.Proof.Gen.KernelIdeal.Skeleton
import proofs.«159130_j36421322670264_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RowValue

open Idealize.ShloMosaic Idealize.ShloMosaic.ValueIdx Cert.KernelIdeal

/-! ## Layout operations of this kernel read at coordinates -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, k, j)`, the operand at `(i, 0, j)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    show 0 = if (1 : ℕ) = 1 then 0 else k.val
    rw [if_pos rfl]
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ =>
    show 0 = if (1 : ℕ) = 1 then 0 else i.val
    rw [if_pos rfl]
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array cast to `[a * b, c]` reads, at row `i * b + k`, the operand at `(i, k, ·)`. -/
theorem shapeCast_abc_mc_apply {α : Type} {a b c m : ℕ} (x : (⟨3, ![a, b, c]⟩ : Shape).Idx → α)
    (h : (⟨3, ![a, b, c]⟩ : Shape).ShapeCasts ⟨2, ![m, c]⟩) (i : Fin a) (k : Fin b) (j : Fin c) (r : Fin m)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-! ## The lane sum and the two matrix products -/

/-- The sum over the 256 features of a `[2048, 256]` array, as a function of the row. -/
theorem rowSum_fun (x : FVec Ideal S2048x256 .f32) (h : S2048x256.Reduces [1] S2048)
    (hφ : FTy.f32 = FTy.f32 ∨ FTy.f32 = FTy.bf16) (hacc : (0x00000000#32 : BitVec 32) = 0x00000000#32) :
    multiReduction (F := Ideal) .add [1] S2048 x 0x00000000#32 h hφ hacc
      = fun j => ∑ d : Fin 256, x (ix2 (j 0) d) :=
  funext fun j => (Ideal.multiReduction_add_single x 0x00000000#32 h hφ hacc j).trans
    (Finset.sum_congr rfl fun k _ => congrArg x (funext fun a => Fin.ext (by
      match a with
      | ⟨0, _⟩ => rfl
      | ⟨1, _⟩ => rfl)))

/-- On its row axis the first product's left operand is read at the output's row. -/
theorem mm1_lhs0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

/-- On its column axis the first product's right operand is read at the output's column. -/
theorem mm1_rhs1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The first matrix product into the zero accumulator, read at `(r, e)`: the sum over the 256 features. -/
theorem mm1_apply (A : FVec Ideal S2048x256 .bf16) (B : FVec Ideal S256x512 .bf16) (r : Fin 2048) (e : Fin 512) :
    matmul (F := Ideal) dot_S2048x256_S256x512_S2048x512_1_0_0_1_n_n none A B
        (constant (F := Ideal) S2048x512 .f32 0x00000000#32) (ix2 r e)
      = ∑ d : Fin 256, A (ix2 r d) * B (ix2 d e) := by
  simp only [matmul]
  rw [Ideal.matmul_constant_zero_apply,
    ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r e)
      ((contrEquiv1 dot_S2048x256_S256x512_S2048x512_1_0_0_1_n_n 256 rfl rfl).symm k) = ix2 r k :=
    funext fun a => Fin.ext (by
      match a with
      | ⟨0, _⟩ => exact mm1_lhs0 _ _
      | ⟨1, _⟩ => exact (dot_S2048x256_S256x512_S2048x512_1_0_0_1_n_n.lhsIdx_val_of_single rfl _ _).trans hk)
  have er : dot_S2048x256_S256x512_S2048x512_1_0_0_1_n_n.rhsIdx (ix2 r e)
      ((contrEquiv1 dot_S2048x256_S256x512_S2048x512_1_0_0_1_n_n 256 rfl rfl).symm k) = ix2 k e :=
    funext fun a => Fin.ext (by
      match a with
      | ⟨0, _⟩ => exact (dot_S2048x256_S256x512_S2048x512_1_0_0_1_n_n.rhsIdx_val_of_single rfl _ _).trans hk
      | ⟨1, _⟩ => exact mm1_rhs1 _ _)
  rw [el, er]

/-- On its row axis the second product's left operand is read at the output's row. -/
theorem mm2_lhs0 (i : S2048x2.Idx) (q : dot_S2048x512_S512x2_S2048x2_1_0_0_1_n_n.contr.Idx) :
    (dot_S2048x512_S512x2_S2048x2_1_0_0_1_n_n.lhsIdx i q 0).val = (i 0).val := by
  unfold DotDims.lhsIdx
  rw [dif_neg (show ¬(0 : Fin S2048x512.rank) ∈ dot_S2048x512_S512x2_S2048x2_1_0_0_1_n_n.lhsBatch by decide),
    dif_pos (show (0 : Fin S2048x512.rank) ∈ dot_S2048x512_S512x2_S2048x2_1_0_0_1_n_n.lhsNonContracting by decide)]
  rfl

/-- On its column axis the second product's right operand is read at the output's column. -/
theorem mm2_rhs1 (i : S2048x2.Idx) (q : dot_S2048x512_S512x2_S2048x2_1_0_0_1_n_n.contr.Idx) :
    (dot_S2048x512_S512x2_S2048x2_1_0_0_1_n_n.rhsIdx i q 1).val = (i 1).val := by
  unfold DotDims.rhsIdx
  rw [dif_neg (show ¬(1 : Fin S512x2.rank) ∈ dot_S2048x512_S512x2_S2048x2_1_0_0_1_n_n.rhsBatch by decide),
    dif_pos (show (1 : Fin S512x2.rank) ∈ dot_S2048x512_S512x2_S2048x2_1_0_0_1_n_n.rhsNonContracting by decide)]
  rfl

/-- The second matrix product into the zero accumulator, read at `(r, o)`: the sum over the 512 hidden units. -/
theorem mm2_apply (A : FVec Ideal S2048x512 .bf16) (B : FVec Ideal S512x2 .bf16) (r : Fin 2048) (o : Fin 2) :
    matmul (F := Ideal) dot_S2048x512_S512x2_S2048x2_1_0_0_1_n_n none A B
        (constant (F := Ideal) S2048x2 .f32 0x00000000#32) (ix2 r o)
      = ∑ e : Fin 512, A (ix2 r e) * B (ix2 e o) := by
  simp only [matmul]
  rw [Ideal.matmul_constant_zero_apply,
    ← Equiv.sum_comp (contrEquiv1 dot_S2048x512_S512x2_S2048x2_1_0_0_1_n_n 512 rfl rfl).symm]
  refine Finset.sum_congr rfl fun k _ => ?_
  have hk := contrEquiv1_symm_val dot_S2048x512_S512x2_S2048x2_1_0_0_1_n_n 512 rfl rfl k
  have el : dot_S2048x512_S512x2_S2048x2_1_0_0_1_n_n.lhsIdx (ix2 r o)
      ((contrEquiv1 dot_S2048x512_S512x2_S2048x2_1_0_0_1_n_n 512 rfl rfl).symm k) = ix2 r k :=
    funext fun a => Fin.ext (by
      match a with
      | ⟨0, _⟩ => exact mm2_lhs0 _ _
      | ⟨1, _⟩ => exact (dot_S2048x512_S512x2_S2048x2_1_0_0_1_n_n.lhsIdx_val_of_single rfl _ _).trans hk)
  have er : dot_S2048x512_S512x2_S2048x2_1_0_0_1_n_n.rhsIdx (ix2 r o)
      ((contrEquiv1 dot_S2048x512_S512x2_S2048x2_1_0_0_1_n_n 512 rfl rfl).symm k) = ix2 k o :=
    funext fun a => Fin.ext (by
      match a with
      | ⟨0, _⟩ => exact (dot_S2048x512_S512x2_S2048x2_1_0_0_1_n_n.rhsIdx_val_of_single rfl _ _).trans hk
      | ⟨1, _⟩ => exact mm2_rhs1 _ _)
  rw [el, er]

/-! ## The embedding sum -/

/-- The sum of the time and frequency embeddings at token row `tl * 128 + f`. -/
theorem pos_apply (v0 : Vec Ideal S16x256 .f32) (v1 : Vec Ideal S128x256 .f32) (tl : Fin 16) (f : Fin 128)
    (d : Fin 256) (r : Fin 2048) (hr : r.val = tl.val * 128 + f.val) :
    Gen.k0_pay1 (F := Ideal) v0 v1 (ix2 r d) = v0 (ix2 tl d) + v1 (ix2 f d) := by
  unfold Gen.k0_pay1
  refine (shapeCast_abc_mc_apply _ _ tl f d r hr).trans ?_
  refine (addf_apply _ _ _).trans ?_
  refine congrArg₂ (· + ·) ?_ ?_
  · exact (broadcastTo_a1c_abc_apply _ _ tl f d).trans (shapeCast_ab_a1b_apply _ _ tl 0 d)
  · exact (broadcastTo_1bc_abc_apply _ _ tl f d).trans (shapeCast_ab_1ab_apply _ _ 0 f d)

/-! ## Normalisation and the two affine layers at one row -/

/-- The reciprocal square root of a vector reads elementwise. -/
theorem rsqrt_apply {s : Shape} {φ : FTy} (a : FVec Ideal s φ) (i : s.Idx) : rsqrt a i = Ideal.rsqrt (a i) := rfl

/-- A scalar literal at the extended reals is the extended real its word encodes. -/
theorem scalar_ofBits (φ : FTy) (b : BitVec φ.bits) : Scalar.ofBits (F := Ideal) φ b = Ideal.ofBits φ b := rfl

/-- Row `r` of the normalised, twice affinely mapped block: the specification's layers applied to the row of `x` plus
row `r` of the embedding sums. -/
theorem pay5_apply (v7 : FVec Ideal S2048x256 .f32) (v8 v9 : Vec Ideal S256 .f32) (v11 : FVec Ideal S256x512 .bf16)
    (v12 : Vec Ideal S512 .f32) (v14 : FVec Ideal S512x2 .bf16) (v15 : Vec Ideal S2 .f32) (v20 : Vec Ideal S1x256 .f32)
    (r : Fin 2048) (o : Fin 2) :
    Gen.k0_pay5 (F := Ideal) v7 v8 v9 v11 v12 v14 v15 v20 (ix2 r o)
      = Spec.outp (Spec.hidden (Spec.norm (fun d => v20 (ix2 (0 : Fin 1) d) + v7 (ix2 r d)) (fun d => v8 (ix1 d)) (fun d => v9 (ix1 d)))
          (fun d e => v11 (ix2 d e)) (fun e => v12 (ix1 e))) (fun e o' => v14 (ix2 e o')) (fun o' => v15 (ix1 o')) o := by
  unfold Gen.k0_pay5
  rw [rowSum_fun, rowSum_fun]
  simp only [addf_apply, mulf_apply, subf_apply, divf_apply, maximumf_apply, truncf_apply, broadcast_apply, rsqrt_apply,
    broadcastTo_1b_ab_apply, shapeCast_a_1a_apply, shapeCast_1a_a_apply, broadcastTo_a1_ab_apply, shapeCast_a_a1_apply,
    mm1_apply, mm2_apply, scalar_ofBits, Ideal.ofBits_zero_f32,
    Spec.outp, Spec.hidden, Spec.norm, Spec.mean, Spec.var, Spec.c256, Spec.ceps]

/-! ## One row of the stored block -/

/-- Row `tl * 128 + f` of the block the kernel stores for a row of `x` is the specification's token for that row of
`x`, time step `tl` of the block and frequency bin `f`. -/
theorem row_eq_token (v0 : Vec Ideal S16x256 .f32) (v1 : Vec Ideal S128x256 .f32) (v8 v9 : Vec Ideal S256 .f32)
    (v10 : Vec Ideal S256x512 .f32) (v12 : Vec Ideal S512 .f32) (v13 : Vec Ideal S512x2 .f32) (v15 : Vec Ideal S2 .f32)
    (v20 : Vec Ideal S1x256 .f32) (tl : Fin 16) (f : Fin 128) (o : Fin 2) :
    Gen.k0_pay4 (F := Ideal) (Gen.k0_pay5 (Gen.k0_pay1 v0 v1) v8 v9 (Gen.k0_pay2 v10) v12 (Gen.k0_pay3 v13) v15 v20)
        (ix3 (0 : Fin 1) (⟨tl.val * 128 + f.val, by omega⟩ : Fin 2048) o)
      = Spec.token (fun d => v20 (ix2 (0 : Fin 1) d)) (fun d => v0 (ix2 tl d)) (fun d => v1 (ix2 f d))
          (fun d => v8 (ix1 d)) (fun d => v9 (ix1 d)) (fun d e => v10 (ix2 d e)) (fun e => v12 (ix1 e))
          (fun e o' => v13 (ix2 e o')) (fun o' => v15 (ix1 o')) o := by
  unfold Gen.k0_pay4
  refine (shapeCast_ab_1ab_apply _ _ (0 : Fin 1) _ o).trans ?_
  refine (pay5_apply _ _ _ _ _ _ _ _ _ o).trans ?_
  have hfeat : (fun d : Fin 256 => v20 (ix2 (0 : Fin 1) d)
        + Gen.k0_pay1 (F := Ideal) v0 v1 (ix2 (⟨tl.val * 128 + f.val, by omega⟩ : Fin 2048) d))
      = Spec.feat (fun d => v20 (ix2 (0 : Fin 1) d)) (fun d => v0 (ix2 tl d)) (fun d => v1 (ix2 f d)) :=
    funext fun d => congrArg (v20 (ix2 (0 : Fin 1) d) + ·) (pos_apply v0 v1 tl f d _ rfl)
  exact congrArg (fun h => Spec.outp (Spec.hidden (Spec.norm h (fun d => v8 (ix1 d)) (fun d => v9 (ix1 d)))
    (fun d e => v10 (ix2 d e)) (fun e => v12 (ix1 e))) (fun e o' => v13 (ix2 e o')) (fun o' => v15 (ix1 o')) o) hfeat

end Cert.RowValue

end
-- ==== Proof.TailValue.lean ====
/-
  The two reshapes around the kernel's region.

  Before the region the [2, 8, 256] argument is flattened to [16, 256]; after it the [16, 16384, 2] array the region
  produced is reshaped to [2, 8, 128, 128, 2].  A reshape keeps every element at its row-major position, so the
  result at (b, n, t, f, o) is the [16, 16384, 2] array at row b * 8 + n, column t * 128 + f, output o; that column's
  quotient and remainder by 128 are t and f, and row b * 8 + n of the flattened argument is row (b, n) of the
  argument.  Hence the reshaped array is the specification's result.
-/
import proofs.«159130_j36421322670264_2_alg».proof.KernelIdeal
import proofs.«159130_j36421322670264_2_alg».proof.Proof.Spec
import Idealize.ShloMosaic.Lib.Pipeline.Value
import Idealize.ShloMosaic.Lib.ValueIdx
import Idealize.ShloMosaic.PureOps.Ideal

noncomputable section

namespace Cert.TailValue

open Cert.KernelIdeal Idealize.ShloMosaic Idealize.ShloMosaic.ValueIdx

/-- Row b * 8 + n of the flattened argument is row (b, n) of the argument. -/
theorem flatten_row (x : FVec Ideal S2x8x256 .f32) (h1 : S2x8x256.ShapeCasts S16x256)
    (b : Fin 2) (n : Fin 8) (d : Fin 256) :
    shapeCast S16x256 x h1 (ix2 (⟨b.val * 8 + n.val, by omega⟩ : Fin 16) d) = x (ix3 b n d) :=
  shapeCast_apply x h1 _ _ (by
    rw [Shape.rowMajor_val_three, Shape.rowMajor_val_two]
    rfl)

/-- Column t * 128 + f of the flat array is the token of time step t and frequency bin f. -/
theorem flat_at (x2 : (⟨2, ![16, 256]⟩ : Shape).Idx → EReal) (te fe : (⟨2, ![128, 256]⟩ : Shape).Idx → EReal)
    (g b : (⟨1, ![256]⟩ : Shape).Idx → EReal) (W1 : (⟨2, ![256, 512]⟩ : Shape).Idx → EReal)
    (b1 : (⟨1, ![512]⟩ : Shape).Idx → EReal) (W2 : (⟨2, ![512, 2]⟩ : Shape).Idx → EReal)
    (b2 : (⟨1, ![2]⟩ : Shape).Idx → EReal) (r : Fin 16) (t f : Fin 128) (o : Fin 2) :
    Cert.Spec.flat x2 te fe g b W1 b1 W2 b2 (ix3 r (⟨t.val * 128 + f.val, by omega⟩ : Fin 16384) o)
      = Cert.Spec.token (fun d => x2 (ix2 r d)) (fun d => te (ix2 t d)) (fun d => fe (ix2 f d))
          (fun d => g (ix1 d)) (fun d => b (ix1 d)) (fun d e => W1 (ix2 d e)) (fun e => b1 (ix1 e))
          (fun e o => W2 (ix2 e o)) (fun o => b2 (ix1 o)) o := by
  have ht : ∀ p : (t.val * 128 + f.val) / 128 < 128, (⟨(t.val * 128 + f.val) / 128, p⟩ : Fin 128) = t :=
    fun _ => Fin.ext (by have := f.isLt; show (t.val * 128 + f.val) / 128 = t.val; omega)
  have hf : ∀ p : (t.val * 128 + f.val) % 128 < 128, (⟨(t.val * 128 + f.val) % 128, p⟩ : Fin 128) = f :=
    fun _ => Fin.ext (by have := f.isLt; show (t.val * 128 + f.val) % 128 = f.val; omega)
  show Cert.Spec.token (fun d => x2 (ix2 r d))
      (fun d => te (ix2 (⟨(t.val * 128 + f.val) / 128, _⟩ : Fin 128) d))
      (fun d => fe (ix2 (⟨(t.val * 128 + f.val) % 128, _⟩ : Fin 128) d))
      (fun d => g (ix1 d)) (fun d => b (ix1 d)) (fun d e => W1 (ix2 d e)) (fun e => b1 (ix1 e))
      (fun e o => W2 (ix2 e o)) (fun o => b2 (ix1 o)) o = _
  rw [ht, hf]

/-- The flat array, reshaped, is the specification's result: stated for any two witnesses of the reshapes. -/
theorem reshape_flat_of (h1 : S2x8x256.ShapeCasts S16x256) (h2 : S16x16384x2.ShapeCasts S2x8x128x128x2)
    (x : FVec Ideal S2x8x256 .f32) (te fe : FVec Ideal S128x256 .f32) (g b : FVec Ideal S256 .f32)
    (W1 : FVec Ideal S256x512 .f32) (b1 : FVec Ideal S512 .f32) (W2 : FVec Ideal S512x2 .f32)
    (b2 : FVec Ideal S2 .f32) :
    shapeCast S2x8x128x128x2
        (Cert.Spec.flat (shapeCast S16x256 x h1) te fe g b W1 b1 W2 b2 : FVec Ideal S16x16384x2 .f32) h2
      = Cert.Spec.result x te fe g b W1 b1 W2 b2 := by
  funext i
  obtain ⟨p, n, t, f, o, rfl⟩ : ∃ (p : Fin 2) (n : Fin 8) (t f : Fin 128) (o : Fin 2), i = ix5 p n t f o :=
    ⟨i 0, i 1, i 2, i 3, i 4, eq_ix5 i⟩
  rw [shapeCast_apply _ h2 (ix5 p n t f o)
    (ix3 (⟨p.val * 8 + n.val, by omega⟩ : Fin 16) (⟨t.val * 128 + f.val, by omega⟩ : Fin 16384) o) (by
      rw [Shape.rowMajor_val_three, Shape.rowMajor_val_five]
      show ((p.val * 8 + n.val) * 16384 + (t.val * 128 + f.val)) * 2 + o.val
        = (((p.val * 8 + n.val) * 128 + t.val) * 128 + f.val) * 2 + o.val
      omega)]
  rw [flat_at]
  have hx : (fun d : Fin 256 => shapeCast S16x256 x h1 (ix2 (⟨p.val * 8 + n.val, by omega⟩ : Fin 16) d))
      = fun d => x (ix3 p n d) := funext fun d => flatten_row x h1 p n d
  rw [hx]
  rfl

section
variable [Facts₀]
open Cert.KernelIdeal.Facts₀

/-- The flat array, reshaped as the program reshapes it, is the specification's result. -/
theorem reshape_flat (x : FVec Ideal S2x8x256 .f32) (te fe : FVec Ideal S128x256 .f32) (g b : FVec Ideal S256 .f32)
    (W1 : FVec Ideal S256x512 .f32) (b1 : FVec Ideal S512 .f32) (W2 : FVec Ideal S512x2 .f32)
    (b2 : FVec Ideal S2 .f32) :
    shapeCast S2x8x128x128x2
        (Cert.Spec.flat (shapeCast S16x256 x shapeCasts_S2x8x256_S16x256) te fe g b W1 b1 W2 b2
          : FVec Ideal S16x16384x2 .f32) shapeCasts_S16x16384x2_S2x8x128x128x2
      = Cert.Spec.result x te fe g b W1 b1 W2 b2 :=
  reshape_flat_of _ _ x te fe g b W1 b1 W2 b2

end

end Cert.TailValue

end
-- ==== Proof.KernelValue.lean ====
/-
  The kernel's result, read.  At grid point `t` the body leaves in the [16, 2048, 2] output block, at (r, l, o), output
  `o` of the token (row `r` of the flattened `x`, time step `16 t + l / 128`, frequency bin `l % 128`); the block is
  written back to columns [2048 t, 2048 t + 2048) of the [16, 16384, 2] result array, and the eight blocks tile that
  array, so the array ends at `Spec.flat` of the argument arrays.  The reshape after the region turns it into
  `Spec.result`.
-/
import proofs.«159130_j36421322670264_2_alg».proof.Proof.KernelIdealBody
import proofs.«159130_j36421322670264_2_alg».proof.Proof.RowValue
import proofs.«159130_j36421322670264_2_alg».proof.Proof.TailValue
import proofs.«159130_j36421322670264_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Loads read back -/

theorem zeros2 : (![0, 0] : Fin 2 → Nat) = fun _ => 0 := funext fun a => by fin_cases a <;> rfl
theorem zeros1 : (![0] : Fin 1 → Nat) = fun _ => 0 := funext fun a => by fin_cases a <;> rfl

/-- A load of a whole buffer reads its contents. -/
theorem load_whole {S : Shape} {e : EltTy} (mr : Memref sig .tc .vmem S e) (h : mr.IsWhole) (X : S.Idx → Elt Ideal e)
    {off : Fin S.rank → Nat} (hz : off = fun _ => 0) (inb : ∀ a, off a + S.size a ≤ S.size a) :
    View.readAt (Elt Ideal) mr.view (Rect.unit off S.size inb).toLoadRect (h.unread X) = X := by
  rw [View.readAt_eq_ld, h.read_unread, View.ld_unit_zero hz]

/-- The load of row `k` of a [16, 256] buffer reads row `k` of its contents. -/
theorem load_row (mr : Memref sig .tc .vmem S16x256 .f32) (h : mr.IsWhole) (X : S16x256.Idx → Elt Ideal .f32)
    (k : Fin k0_t1_loop.trips) (d : Fin 256) :
    View.readAt (Elt Ideal) mr.view (Rect.unit (s := S16x256) (k0_off1 k) S1x256.size (k0_off1_inb k)).toLoadRect (h.unread X)
        (ix2 (0 : Fin 1) d)
      = X (ix2 (⟨k.val, Nat.lt_of_lt_of_eq k.isLt Body.trips_eq⟩ : Fin 16) d) := by
  rw [View.readAt_eq_ld, h.read_unread]
  show X _ = X _
  refine congrArg X (funext fun a => Fin.ext ?_)
  have e := k0_off1_eq k
  match a with
  | ⟨0, _⟩ => show k0_off1 k 0 + 1 * 0 = k.val; rw [e]; rfl
  | ⟨1, _⟩ => show k0_off1 k 1 + 1 * d.val = d.val; rw [e]; show 0 + 1 * d.val = d.val; omega

/-! ## The index maps, decided over the grid -/

/-- The time-embedding window moves with the output window's column block; every other input window stays at block
    zero; the output window's row and channel blocks are zero and its column block is the point's number. -/
theorem idx_facts : ∀ t : Fin cfg0.N,
    win0_0.index t (0 : Fin 2) = win0_9.index t (1 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) = 0 ∧ win0_9.index t (2 : Fin 3) = 0 ∧ win0_9.index t (1 : Fin 3) ≤ 7 :=
  (by decide +kernel : ∀ t : Fin grid0.N, _)

/-- Every column block of the result array is some point's. -/
theorem idx_onto : ∀ q : Fin 8, ∃ t : Fin cfg0.N, win0_9.index t = ![0, q.val, 0] :=
  (by decide +kernel : ∀ q : Fin 8, ∃ t : Fin grid0.N, win0_9.index t = ![0, q.val, 0])

/-- An index of the result array is in point `t`'s block iff each coordinate is in the block's range on its axis. -/
theorem mem_blk (t : Fin cfg0.N) (i : S16x16384x2.Idx) :
    i ∈ ((cfg0.win 9).blk t).view.set ↔ ∀ a : Fin 3, win0_9.index t a * S16x2048x2.size a ≤ (i a).val ∧ (i a).val < win0_9.index t a * S16x2048x2.size a + S16x2048x2.size a := by
  show i ∈ ((View.whole main_v1).slice (win0_9.rect t)).set ↔ _
  rw [View.set_slice_whole, Rect.mem_set_unit]
  exact Iff.rfl

/-- The eight blocks tile the result array. -/
theorem cover (i : S16x16384x2.Idx) : ∃ t : Fin cfg0.N, (cfg0.win 9).flush t = true ∧ i ∈ ((cfg0.win 9).blk t).view.set := by
  have hi0 : (i 0).val < 16 := (i 0).isLt
  have hi1 : (i 1).val < 16384 := (i 1).isLt
  have hi2 : (i 2).val < 2 := (i 2).isLt
  obtain ⟨t, ht⟩ := idx_onto ⟨(i 1).val / 2048, by omega⟩
  have q0 : win0_9.index t (0 : Fin 3) = 0 := congrFun ht 0
  have q1 : win0_9.index t (1 : Fin 3) = (i 1).val / 2048 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 16 ≤ (i 0).val ∧ (i 0).val < win0_9.index t (0 : Fin 3) * 16 + 16; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 2 ≤ (i 2).val ∧ (i 2).val < win0_9.index t (2 : Fin 3) * 2 + 2; omega

/-! ## The host operations around the region -/

/-- The region finds the third window's array at `x` flattened to [16, 256]: the reshape before the region. -/
theorem V_x2 (c : Dev nD) :
    (V m c main_v0 : S16x256.Idx → EReal) = shapeCast S16x256 (m ((c : Thread nD τ).loc main_arg0)) shapeCasts_S2x8x256_S16x256 := by
  show StableHlo.after hostOps0 (fun b => m (c, b)) (Proc.devRef .tc main_v0) = _
  after_results
  rfl

/-! ## What a grid point writes back -/

/-- The result array as the region leaves it: `Spec.flat` of the arrays as the region finds them. -/
abbrev G (c : Dev nD) : S16x16384x2.Idx → EReal :=
  Spec.flat (V m c main_v0) (V m c main_arg1) (V m c main_arg2) (V m c main_arg3) (V m c main_arg4)
    (V m c main_arg5) (V m c main_arg6) (V m c main_arg7) (V m c main_arg8)

/-- Two tokens with the same rows, parameters and output index have the same output. -/
theorem token_congr {xr xr' tr tr' fr fr' g g' b b' : Fin 256 → EReal} {W1 W1' : Fin 256 → Fin 512 → EReal}
    {b1 b1' : Fin 512 → EReal} {W2 W2' : Fin 512 → Fin 2 → EReal} {b2 b2' : Fin 2 → EReal} {o o' : Fin 2}
    (h1 : ∀ d, xr d = xr' d) (h2 : ∀ d, tr d = tr' d) (h3 : ∀ d, fr d = fr' d) (h4 : ∀ d, g d = g' d)
    (h5 : ∀ d, b d = b' d) (h6 : ∀ d e, W1 d e = W1' d e) (h7 : ∀ e, b1 e = b1' e) (h8 : ∀ e o, W2 e o = W2' e o)
    (h9 : ∀ o, b2 o = b2' o) (h10 : o = o') :
    Spec.token xr tr fr g b W1 b1 W2 b2 o = Spec.token xr' tr' fr' g' b' W1' b1' W2' b2' o' := by
  obtain rfl : xr = xr' := funext h1
  obtain rfl : tr = tr' := funext h2
  obtain rfl : fr = fr' := funext h3
  obtain rfl : g = g' := funext h4
  obtain rfl : b = b' := funext h5
  obtain rfl : W1 = W1' := funext fun d => funext (h6 d)
  obtain rfl : b1 = b1' := funext h7
  obtain rfl : W2 = W2' := funext fun e => funext (h8 e)
  obtain rfl : b2 = b2' := funext h9
  rw [h10]

/-- The value the body leaves at (r, l, o) of its output block, over the loaded values: output `o` of the token of row
    `r` of the third input's contents, row `l / 128` of the first input and row `l % 128` of the second. -/
theorem block_value (mr : Memref sig .tc .vmem S16x256 .f32) (h : mr.IsWhole)
    (v0 : Vec Ideal S16x256 .f32) (v1 : Vec Ideal S128x256 .f32) (v8 v9 : Vec Ideal S256 .f32) (v10 : Vec Ideal S256x512 .f32)
    (v12 : Vec Ideal S512 .f32) (v13 : Vec Ideal S512x2 .f32) (v15 : Vec Ideal S2 .f32) (X2 : S16x256.Idx → Elt Ideal .f32)
    (r : Fin 16) (l : Fin 2048) (o : Fin 2) :
    rowPay (F := Ideal) mr v0 v1 v8 v9 v10 v12 v13 v15 (h.unread X2) ⟨r.val, Nat.lt_of_lt_of_eq r.isLt Body.trips_eq.symm⟩ (ix3 (0 : Fin 1) l o)
      = Spec.token (fun d => X2 (ix2 r d))
          (fun d => v0 (ix2 (⟨l.val / 128, Nat.div_lt_of_lt_mul l.isLt⟩ : Fin 16) d))
          (fun d => v1 (ix2 (⟨l.val % 128, Nat.mod_lt _ (by norm_num)⟩ : Fin 128) d))
          (fun d => v8 (ix1 d)) (fun d => v9 (ix1 d)) (fun d e => v10 (ix2 d e)) (fun e => v12 (ix1 e)) (fun e o' => v13 (ix2 e o')) (fun o' => v15 (ix1 o')) o := by
  unfold rowPay
  have hidx : (ix3 (0 : Fin 1) l o : S1x2048x2.Idx)
      = ix3 (0 : Fin 1) (⟨(⟨l.val / 128, Nat.div_lt_of_lt_mul l.isLt⟩ : Fin 16).val * 128 + (⟨l.val % 128, Nat.mod_lt _ (by norm_num)⟩ : Fin 128).val, by
          have := l.isLt; show l.val / 128 * 128 + l.val % 128 < 2048; omega⟩ : Fin 2048) o := by
    funext a; apply Fin.ext
    match a with
    | ⟨0, _⟩ => rfl
    | ⟨1, _⟩ => show l.val = l.val / 128 * 128 + l.val % 128; omega
    | ⟨2, _⟩ => rfl
  rw [hidx, Cert.RowValue.row_eq_token]
  exact token_congr (fun d => load_row mr h X2 ⟨r.val, Nat.lt_of_lt_of_eq r.isLt Body.trips_eq.symm⟩ d) (fun _ => rfl) (fun _ => rfl) (fun _ => rfl)
    (fun _ => rfl) (fun _ _ => rfl) (fun _ => rfl) (fun _ _ => rfl) (fun _ => rfl) rfl

set_option maxHeartbeats 1000000 in
/-- WHAT POINT `t` WRITES BACK is block `t` of `G`: at (r, l, o) of the block both are output `o` of the token of row
    `r` of the flattened `x`, time step `16 t + l / 128` and frequency bin `l % 128`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after9]
  obtain ⟨e00, e01, e10, e11, e20, e21, e3, e4, e50, e51, e6, e70, e71, e8, e90, e92, e91⟩ := idx_facts t
  show (outAt m c t : S16x2048x2.Idx → EReal) = fun (j : S16x2048x2.Idx) => G m c (((cfg0.win 9).blk t).view.emb j)
  funext j
  obtain ⟨r, l, o, rfl⟩ : ∃ (r : Fin 16) (l : Fin 2048) (o : Fin 2), j = ix3 r l o := ⟨j 0, j 1, j 2, eq_ix3 j⟩
  have hr : r.val < 16 := r.isLt
  have hl : l.val < 2048 := l.isLt
  have ho : o.val < 2 := o.isLt
  unfold outAt outBlock blockOut
  rw [load_whole (ms0 t) (hs0 t) (iblk m c 0 t) zeros2, load_whole (ms1 t) (hs1 t) (iblk m c 1 t) zeros2,
    load_whole (ms3 t) (hs3 t) (iblk m c 3 t) zeros1, load_whole (ms4 t) (hs4 t) (iblk m c 4 t) zeros1,
    load_whole (ms5 t) (hs5 t) (iblk m c 5 t) zeros2, load_whole (ms6 t) (hs6 t) (iblk m c 6 t) zeros1,
    load_whole (ms7 t) (hs7 t) (iblk m c 7 t) zeros2, load_whole (ms8 t) (hs8 t) (iblk m c 8 t) zeros1]
  refine (block_value (ms2 t) (hs2 t) (iblk m c 0 t) (iblk m c 1 t) (iblk m c 3 t) (iblk m c 4 t) (iblk m c 5 t)
    (iblk m c 6 t) (iblk m c 7 t) (iblk m c 8 t) (iblk m c 2 t) r l o).trans ?_
  unfold G Spec.flat
  refine token_congr (fun d => ?_) (fun d => ?_) (fun d => ?_) (fun d => ?_) (fun d => ?_) (fun d e => ?_) (fun e => ?_)
    (fun e o' => ?_) (fun o' => ?_) ?_
  · show V m c main_v0 (((cfg0.win 2).blk t).view.emb (ix2 r d)) = V m c main_v0 _
    refine congrArg (V m c main_v0) (funext fun a => Fin.ext ?_)
    match a with
    | ⟨0, _⟩ => show win0_2.index t (0 : Fin 2) * 16 + 1 * r.val = win0_9.index t (0 : Fin 3) * 16 + 1 * r.val; omega
    | ⟨1, _⟩ => show win0_2.index t (1 : Fin 2) * 256 + 1 * d.val = d.val; omega
  · show V m c main_arg1 (((cfg0.win 0).blk t).view.emb (ix2 (⟨l.val / 128, Nat.div_lt_of_lt_mul l.isLt⟩ : Fin 16) d)) = V m c main_arg1 _
    refine congrArg (V m c main_arg1) (funext fun a => Fin.ext ?_)
    match a with
    | ⟨0, _⟩ => show win0_0.index t (0 : Fin 2) * 16 + 1 * (l.val / 128) = (win0_9.index t (1 : Fin 3) * 2048 + 1 * l.val) / 128; omega
    | ⟨1, _⟩ => show win0_0.index t (1 : Fin 2) * 256 + 1 * d.val = d.val; omega
  · show V m c main_arg2 (((cfg0.win 1).blk t).view.emb (ix2 (⟨l.val % 128, Nat.mod_lt _ (by norm_num)⟩ : Fin 128) d)) = V m c main_arg2 _
    refine congrArg (V m c main_arg2) (funext fun a => Fin.ext ?_)
    match a with
    | ⟨0, _⟩ => show win0_1.index t (0 : Fin 2) * 128 + 1 * (l.val % 128) = (win0_9.index t (1 : Fin 3) * 2048 + 1 * l.val) % 128; omega
    | ⟨1, _⟩ => show win0_1.index t (1 : Fin 2) * 256 + 1 * d.val = d.val; omega
  · show V m c main_arg3 (((cfg0.win 3).blk t).view.emb (ix1 d)) = V m c main_arg3 _
    refine congrArg (V m c main_arg3) (funext fun a => Fin.ext ?_)
    match a with
    | ⟨0, _⟩ => show win0_3.index t (0 : Fin 1) * 256 + 1 * d.val = d.val; omega
  · show V m c main_arg4 (((cfg0.win 4).blk t).view.emb (ix1 d)) = V m c main_arg4 _
    refine congrArg (V m c main_arg4) (funext fun a => Fin.ext ?_)
    match a with
    | ⟨0, _⟩ => show win0_4.index t (0 : Fin 1) * 256 + 1 * d.val = d.val; omega
  · show V m c main_arg5 (((cfg0.win 5).blk t).view.emb (ix2 d e)) = V m c main_arg5 _
    refine congrArg (V m c main_arg5) (funext fun a => Fin.ext ?_)
    match a with
    | ⟨0, _⟩ => show win0_5.index t (0 : Fin 2) * 256 + 1 * d.val = d.val; omega
    | ⟨1, _⟩ => show win0_5.index t (1 : Fin 2) * 512 + 1 * e.val = e.val; omega
  · show V m c main_arg6 (((cfg0.win 6).blk t).view.emb (ix1 e)) = V m c main_arg6 _
    refine congrArg (V m c main_arg6) (funext fun a => Fin.ext ?_)
    match a with
    | ⟨0, _⟩ => show win0_6.index t (0 : Fin 1) * 512 + 1 * e.val = e.val; omega
  · show V m c main_arg7 (((cfg0.win 7).blk t).view.emb (ix2 e o')) = V m c main_arg7 _
    refine congrArg (V m c main_arg7) (funext fun a => Fin.ext ?_)
    match a with
    | ⟨0, _⟩ => show win0_7.index t (0 : Fin 2) * 512 + 1 * e.val = e.val; omega
    | ⟨1, _⟩ => show win0_7.index t (1 : Fin 2) * 2 + 1 * o'.val = o'.val; omega
  · show V m c main_arg8 (((cfg0.win 8).blk t).view.emb (ix1 o')) = V m c main_arg8 _
    refine congrArg (V m c main_arg8) (funext fun a => Fin.ext ?_)
    match a with
    | ⟨0, _⟩ => show win0_8.index t (0 : Fin 1) * 2 + 1 * o'.val = o'.val; omega
  · apply Fin.ext
    show o.val = win0_9.index t (2 : Fin 3) * 2 + 1 * o.val
    omega

/-- THE RESULT ARRAY after the region: the eight blocks tile it. -/
theorem final (c : Dev nD) : (dats m 0 c).arrAt 9 cfg0.N = G m c :=
  (dats m 0 c).arrAt_eq_of_cover 9 (G m c) (fun t _ => flushed_eq m c t) cover

/-! ## The program's result -/

/-- The program's result buffer ends at the reshape, after the region, of the result array. -/
theorem tail_eq (c : Dev nD) :
    Pipeline.afterTail₀ cfgs (dats m) 0 (V0 m) [hostOps1] c main_v2
      = shapeCast S2x8x128x128x2 ((dats m 0 c).arrAt 9 cfg0.N : S16x16384x2.Idx → EReal) shapeCasts_S16x16384x2_S2x8x128x128x2 := by
  unfold Pipeline.afterTail₀
  show StableHlo.after hostOps1 _ (Proc.devRef .tc main_v2) = _
  after_results
  exact congrArg (fun a => shapeCast S2x8x128x128x2 (a : S16x16384x2.Idx → EReal) shapeCasts_S16x16384x2_S2x8x128x128x2)
    (Pipeline.withArrays_arr spec0 launch0.win.arr_inj c _ _ 9)

/-- The result buffer's final contents are `Spec.result` of the argument arrays. -/
theorem result_eq (c : Dev nD) :
    Pipeline.afterTail₀ cfgs (dats m) 0 (V0 m) [hostOps1] c main_v2
      = Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) := by
  rw [tail_eq, final]
  unfold G
  rw [V_x2, V_main_arg1, V_main_arg2, V_main_arg3, V_main_arg4, V_main_arg5, V_main_arg6, V_main_arg7, V_main_arg8]
  exact Cert.TailValue.reshape_flat_of _ _ _ _ _ _ _ _ _ _ _

/-- THE KERNEL'S RUN, READ: from any memory every weakly fair execution of the idealized kernel's @main terminates with
    the result buffer at `Spec.result` of the nine argument arrays, and the arguments unchanged. -/
theorem run : θ_run defs (onTc (τ := τ) (main (F := Ideal))) ⟨m, fun _ => 0, ρ⟩ fun r => ∀ c : Dev nD,
      r.2.mem ((c.tc : Thread nD τ).loc main_v2)
        = Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (Body.run_main (F := Ideal) m ρ)

end Cert.KernelValue

end
-- ==== Proof.RefValue.lean ====
/-
  The reference program computes the specification.

  The reference is a chain of fifty whole-array operations.  Reading its last array at an index (b, n, t, f, o) and
  pushing that index back through the chain — every broadcast moves the index to the operand's, every sum over the
  feature axis becomes a sum over a coordinate, every contraction a sum of products — gives, stage by stage, the terms
  of the specification: the token's features, their mean, their variance, the normalised features, the hidden layer
  and the two outputs.
-/
import proofs.«159130_j36421322670264_2_alg».proof.Proof.Gen.ReferenceIdeal.Read
import proofs.«159130_j36421322670264_2_alg».proof.Proof.Spec
import Idealize.ShloMosaic.Lib.ValueIdx
import Idealize.ShloMosaic.PureOps.Ideal
import Idealize.ShloMosaic.PureOps.Ideal.Laws

noncomputable section

namespace Cert.RefValue

open Cert.ReferenceIdeal Cert.ReferenceIdeal.Read Idealize.ShloMosaic Idealize.ShloMosaic.ValueIdx

variable (x0 : (⟨S2x8x256, .f32⟩ : BufTy).Contents (Elt Ideal))
  (x1 x2 : (⟨S128x256, .f32⟩ : BufTy).Contents (Elt Ideal))
  (x3 x4 : (⟨S256, .f32⟩ : BufTy).Contents (Elt Ideal))
  (x5 : (⟨S256x512, .f32⟩ : BufTy).Contents (Elt Ideal))
  (x6 : (⟨S512, .f32⟩ : BufTy).Contents (Elt Ideal))
  (x7 : (⟨S512x2, .f32⟩ : BufTy).Contents (Elt Ideal))
  (x8 : (⟨S2, .f32⟩ : BufTy).Contents (Elt Ideal))

/-- The features of the token (row (b, n) of the first argument, time t, frequency f). -/
abbrev h (b : Fin 2) (n : Fin 8) (t f : Fin 128) : Fin 256 → EReal :=
  Cert.Spec.feat (fun d => x0 (ix3 b n d)) (fun d => x1 (ix2 t d)) (fun d => x2 (ix2 f d))

/-- The sum of the three broadcast arrays, read at (b, n, t, f, d), is feature d of the token. -/
theorem feat_at (b : Fin 2) (n : Fin 8) (t f : Fin 128) (d : Fin 256) :
    val_main_v9 (F := Ideal) x0 x1 x2 (ix5 b n t f d) = h x0 x1 x2 b n t f d := by
  rw [val_main_v9_apply, val_main_v7_apply, val_main_v5_apply, val_main_v8_apply, val_main_v6_apply, val_main_v4_apply,
    val_main_v2_apply, val_main_v0_apply, val_main_v3_apply, val_main_v1_apply]
  have e0 : idx_main_v5 (idx_main_v7 (ix5 b n t f d)) = ix3 b n d :=
    funext fun a => Fin.ext (by match a with | ⟨0, _⟩ => rfl | ⟨1, _⟩ => rfl | ⟨2, _⟩ => rfl)
  have e1 : idx_main_v0 (idx_main_v2 (idx_main_v6 (idx_main_v8 (ix5 b n t f d)))) = ix2 t d :=
    funext fun a => Fin.ext (by match a with | ⟨0, _⟩ => rfl | ⟨1, _⟩ => rfl)
  have e2 : idx_main_v1 (idx_main_v3 (idx_main_v6 (idx_main_v8 (ix5 b n t f d)))) = ix2 f d :=
    funext fun a => Fin.ext (by match a with | ⟨0, _⟩ => rfl | ⟨1, _⟩ => rfl)
  rw [e0, e1, e2]
  rfl

/-- The sum of the features over the feature axis (the zero initial value drops out). -/
theorem sum_at (b : Fin 2) (n : Fin 8) (t f : Fin 128) :
    val_main_v10 (F := Ideal) x0 x1 x2 (ix4 b n t f) = ∑ d : Fin 256, h x0 x1 x2 b n t f d := by
  rw [val_main_v10_apply, val_main_cst_apply, Ideal.ofBits_def, Ideal.ofBits_zero_f32, zero_add]
  refine Finset.sum_congr rfl fun k _ => ?_
  have e : idx_main_v10 (ix4 b n t f) k = ix5 b n t f k :=
    funext fun a => Fin.ext (by match a with | ⟨0, _⟩ => rfl | ⟨1, _⟩ => rfl | ⟨2, _⟩ => rfl | ⟨3, _⟩ => rfl | ⟨4, _⟩ => rfl)
  rw [e, feat_at]

/-- The mean of the token's features, kept in a last axis of size one. -/
theorem mean_at (b : Fin 2) (n : Fin 8) (t f : Fin 128) (z : Fin 1) :
    val_main_v13 (F := Ideal) x0 x1 x2 (ix5 b n t f z) = Cert.Spec.mean (h x0 x1 x2 b n t f) := by
  rw [val_main_v13_apply, val_main_v11_apply, val_main_v12_apply, val_main_cst_0_apply]
  have e : idx_main_v11 (ix5 b n t f z) = ix4 b n t f :=
    funext fun a => Fin.ext (by match a with | ⟨0, _⟩ => rfl | ⟨1, _⟩ => rfl | ⟨2, _⟩ => rfl | ⟨3, _⟩ => rfl)
  rw [e, sum_at]
  rfl

/-- A feature minus the mean (the copy that is squared for the variance). -/
theorem centred_at (b : Fin 2) (n : Fin 8) (t f : Fin 128) (d : Fin 256) :
    val_main_v15 (F := Ideal) x0 x1 x2 (ix5 b n t f d)
      = h x0 x1 x2 b n t f d - Cert.Spec.mean (h x0 x1 x2 b n t f) := by
  rw [val_main_v15_apply, val_main_v14_apply]
  have e : idx_main_v14 (ix5 b n t f d) = ix5 b n t f (⟨0, Nat.one_pos⟩ : Fin 1) :=
    funext fun a => Fin.ext (by match a with | ⟨0, _⟩ => rfl | ⟨1, _⟩ => rfl | ⟨2, _⟩ => rfl | ⟨3, _⟩ => rfl | ⟨4, _⟩ => rfl)
  rw [e, mean_at, feat_at]
  rfl

/-- A feature minus the mean (the copy that is scaled). -/
theorem centred'_at (b : Fin 2) (n : Fin 8) (t f : Fin 128) (d : Fin 256) :
    val_main_v22 (F := Ideal) x0 x1 x2 (ix5 b n t f d)
      = h x0 x1 x2 b n t f d - Cert.Spec.mean (h x0 x1 x2 b n t f) := by
  rw [val_main_v22_apply, val_main_v21_apply]
  have e : idx_main_v21 (ix5 b n t f d) = ix5 b n t f (⟨0, Nat.one_pos⟩ : Fin 1) :=
    funext fun a => Fin.ext (by match a with | ⟨0, _⟩ => rfl | ⟨1, _⟩ => rfl | ⟨2, _⟩ => rfl | ⟨3, _⟩ => rfl | ⟨4, _⟩ => rfl)
  rw [e, mean_at, feat_at]
  rfl

/-- The sum of the squared deviations over the feature axis. -/
theorem sqsum_at (b : Fin 2) (n : Fin 8) (t f : Fin 128) :
    val_main_v17 (F := Ideal) x0 x1 x2 (ix4 b n t f)
      = ∑ d : Fin 256, (h x0 x1 x2 b n t f d - Cert.Spec.mean (h x0 x1 x2 b n t f))
          * (h x0 x1 x2 b n t f d - Cert.Spec.mean (h x0 x1 x2 b n t f)) := by
  rw [val_main_v17_apply, val_main_cst_1_apply, Ideal.ofBits_def, Ideal.ofBits_zero_f32, zero_add]
  refine Finset.sum_congr rfl fun k _ => ?_
  have e : idx_main_v17 (ix4 b n t f) k = ix5 b n t f k :=
    funext fun a => Fin.ext (by match a with | ⟨0, _⟩ => rfl | ⟨1, _⟩ => rfl | ⟨2, _⟩ => rfl | ⟨3, _⟩ => rfl | ⟨4, _⟩ => rfl)
  rw [e, val_main_v16_apply, centred_at]
  rfl

/-- The variance of the token's features, kept in a last axis of size one. -/
theorem var_at (b : Fin 2) (n : Fin 8) (t f : Fin 128) (z : Fin 1) :
    val_main_v20 (F := Ideal) x0 x1 x2 (ix5 b n t f z) = Cert.Spec.var (h x0 x1 x2 b n t f) := by
  rw [val_main_v20_apply, val_main_v18_apply, val_main_v19_apply, val_main_cst_2_apply]
  have e : idx_main_v18 (ix5 b n t f z) = ix4 b n t f :=
    funext fun a => Fin.ext (by match a with | ⟨0, _⟩ => rfl | ⟨1, _⟩ => rfl | ⟨2, _⟩ => rfl | ⟨3, _⟩ => rfl)
  rw [e, sqsum_at]
  rfl

/-- The normalised features with gain and bias. -/
theorem norm_at (b : Fin 2) (n : Fin 8) (t f : Fin 128) (d : Fin 256) :
    val_main_v33 (F := Ideal) x0 x1 x2 x3 x4 (ix5 b n t f d)
      = Cert.Spec.norm (h x0 x1 x2 b n t f) (fun d => x3 (ix1 d)) (fun d => x4 (ix1 d)) d := by
  rw [val_main_v33_apply, val_main_v30_apply, val_main_v27_apply, val_main_v26_apply, val_main_v25_apply,
    val_main_v24_apply, val_main_v23_apply, val_main_cst_3_apply, val_main_v29_apply, val_main_v28_apply,
    val_main_v32_apply, val_main_v31_apply]
  have e : idx_main_v26 (ix5 b n t f d) = ix5 b n t f (⟨0, Nat.one_pos⟩ : Fin 1) :=
    funext fun a => Fin.ext (by match a with | ⟨0, _⟩ => rfl | ⟨1, _⟩ => rfl | ⟨2, _⟩ => rfl | ⟨3, _⟩ => rfl | ⟨4, _⟩ => rfl)
  have eg : idx_main_v28 (idx_main_v29 (ix5 b n t f d)) = ix1 d :=
    funext fun a => Fin.ext (by match a with | ⟨0, _⟩ => rfl)
  have eb : idx_main_v31 (idx_main_v32 (ix5 b n t f d)) = ix1 d :=
    funext fun a => Fin.ext (by match a with | ⟨0, _⟩ => rfl)
  rw [e, eg, eb, centred'_at, var_at]
  rfl

/-- The token's normalised features. -/
abbrev u (b : Fin 2) (n : Fin 8) (t f : Fin 128) : Fin 256 → EReal :=
  Cert.Spec.norm (h x0 x1 x2 b n t f) (fun d => x3 (ix1 d)) (fun d => x4 (ix1 d))

/-- The hidden layer: the contraction over the 256 features, the bias, and the maximum with zero. -/
theorem hidden_at (b : Fin 2) (n : Fin 8) (t f : Fin 128) (e : Fin 512) :
    val_main_v38 (F := Ideal) x0 x1 x2 x3 x4 x5 x6 (ix5 b n t f e)
      = Cert.Spec.hidden (u x0 x1 x2 x3 x4 b n t f) (fun d e => x5 (ix2 d e)) (fun e => x6 (ix1 e)) e := by
  rw [val_main_v38_apply, val_main_v37_apply, val_main_v34_apply, val_main_v36_apply, val_main_v35_apply,
    val_main_call0_v0_apply, val_main_call0_cst_apply, Ideal.ofBits_def, Ideal.ofBits_zero_f32]
  have es : ∑ k : Fin 256, val_main_v33 (F := Ideal) x0 x1 x2 x3 x4 (lidx_main_v34 (ix5 b n t f e) k)
        * x5 (ridx_main_v34 (ix5 b n t f e) k)
      = ∑ k : Fin 256, u x0 x1 x2 x3 x4 b n t f k * x5 (ix2 k e) := by
    refine Finset.sum_congr rfl fun k _ => ?_
    have el : lidx_main_v34 (ix5 b n t f e) k = ix5 b n t f k :=
      funext fun a => Fin.ext (by match a with | ⟨0, _⟩ => rfl | ⟨1, _⟩ => rfl | ⟨2, _⟩ => rfl | ⟨3, _⟩ => rfl | ⟨4, _⟩ => rfl)
    have er : ridx_main_v34 (ix5 b n t f e) k = ix2 k e :=
      funext fun a => Fin.ext (by match a with | ⟨0, _⟩ => rfl | ⟨1, _⟩ => rfl)
    rw [el, er, norm_at]
  have eb : idx_main_v35 (idx_main_v36 (ix5 b n t f e)) = ix1 e :=
    funext fun a => Fin.ext (by match a with | ⟨0, _⟩ => rfl)
  rw [es, eb]
  rfl

/-- The token's hidden layer. -/
abbrev v (b : Fin 2) (n : Fin 8) (t f : Fin 128) : Fin 512 → EReal :=
  Cert.Spec.hidden (u x0 x1 x2 x3 x4 b n t f) (fun d e => x5 (ix2 d e)) (fun e => x6 (ix1 e))

/-- The output layer: the contraction over the 512 hidden units and the bias. -/
theorem out_at (b : Fin 2) (n : Fin 8) (t f : Fin 128) (o : Fin 2) :
    val_main_v42 (F := Ideal) x0 x1 x2 x3 x4 x5 x6 x7 x8 (ix5 b n t f o)
      = Cert.Spec.outp (v x0 x1 x2 x3 x4 x5 x6 b n t f) (fun e o => x7 (ix2 e o)) (fun o => x8 (ix1 o)) o := by
  rw [val_main_v42_apply, val_main_v39_apply, val_main_v41_apply, val_main_v40_apply]
  have es : ∑ k : Fin 512, val_main_v38 (F := Ideal) x0 x1 x2 x3 x4 x5 x6 (lidx_main_v39 (ix5 b n t f o) k)
        * x7 (ridx_main_v39 (ix5 b n t f o) k)
      = ∑ k : Fin 512, v x0 x1 x2 x3 x4 x5 x6 b n t f k * x7 (ix2 k o) := by
    refine Finset.sum_congr rfl fun k _ => ?_
    have el : lidx_main_v39 (ix5 b n t f o) k = ix5 b n t f k :=
      funext fun a => Fin.ext (by match a with | ⟨0, _⟩ => rfl | ⟨1, _⟩ => rfl | ⟨2, _⟩ => rfl | ⟨3, _⟩ => rfl | ⟨4, _⟩ => rfl)
    have er : ridx_main_v39 (ix5 b n t f o) k = ix2 k o :=
      funext fun a => Fin.ext (by match a with | ⟨0, _⟩ => rfl | ⟨1, _⟩ => rfl)
    rw [el, er, hidden_at]
  have eb : idx_main_v40 (idx_main_v41 (ix5 b n t f o)) = ix1 o :=
    funext fun a => Fin.ext (by match a with | ⟨0, _⟩ => rfl)
  rw [es, eb]
  rfl

/-- The reference's result array is the specification's. -/
theorem ref_eq_spec :
    Cert.ReferenceIdeal.Read.val_main_v42 (F := Ideal) x0 x1 x2 x3 x4 x5 x6 x7 x8
      = Cert.Spec.result x0 x1 x2 x3 x4 x5 x6 x7 x8 := by
  funext i
  obtain ⟨b, n, t, f, o, rfl⟩ : ∃ (b : Fin 2) (n : Fin 8) (t f : Fin 128) (o : Fin 2), i = ix5 b n t f o :=
    ⟨i 0, i 1, i 2, i 3, i 4, eq_ix5 i⟩
  rw [out_at]
  rfl

end Cert.RefValue

end
-- ==== Proof.lean ====
/-
  The certificate of the five claims of Defs.lean, assembled.

  The kernel's program is a pallas_call over eight grid points between two reshapes; its body holds a loop of sixteen
  trips, each of which overwrites one row of the output block.  Its frame, at the word-level and at the idealized
  instance, is the body run by hand (Proof/KernelBody.lean, Proof/KernelIdealBody.lean: the same text at the two
  programs).  The reference's frame is its generated run with the result dropped.  The idealization rewrote no
  operation, so `preserves` is `True`.

  For `algebraic`: on the extended reals both programs compute `Spec.result` (Proof/Spec.lean) of the nine argument
  arrays — the sum of the row of `x`, the time embedding and the frequency embedding, normalised over the 256 features
  with the same literals 256 and epsilon, then the two affine layers with `max · 0` between them.  The kernel's side is
  Proof/KernelValue.lean (a block's rows by Proof/RowValue.lean, the final reshape by Proof/TailValue.lean), the
  reference's Proof/RefValue.lean over the generated read-at-an-index lemmas.  No law of arithmetic beyond reindexing
  sums is used, so the precondition (finite inputs) is never opened.
-/
import proofs.«159130_j36421322670264_2_alg».proof.Defs
import proofs.«159130_j36421322670264_2_alg».proof.Proof.Gen.Kernel
import proofs.«159130_j36421322670264_2_alg».proof.Proof.Gen.KernelIdeal
import proofs.«159130_j36421322670264_2_alg».proof.Proof.Gen.ReferenceIdeal
import proofs.«159130_j36421322670264_2_alg».proof.Proof.Gen.ReferenceIdeal.Run
import proofs.«159130_j36421322670264_2_alg».proof.Proof.Gen.ReferenceIdeal.Read
import proofs.«159130_j36421322670264_2_alg».proof.Proof.Gen.Pre_finite_inputs
import proofs.«159130_j36421322670264_2_alg».proof.Proof.KernelBody
import proofs.«159130_j36421322670264_2_alg».proof.Proof.KernelIdealBody
import proofs.«159130_j36421322670264_2_alg».proof.Proof.KernelValue
import proofs.«159130_j36421322670264_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at `Spec.result` of the arguments, which agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v42_eq, Cert.RefValue.ref_eq_spec, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
